-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel

variable [Facts]

def fn {F : FTy → Type} [FloatOps F] (main_arg0 : FVec F S4x4096x256 .f32) (main_arg1 : FVec F S4x4096x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  main_v8
-- ==== Kernel.lean ====
abbrev S4x4096x256 : Shape := ⟨3, ![4, 4096, 256]⟩
abbrev S4x4096 : Shape := ⟨2, ![4, 4096]⟩
abbrev S4x1024x256 : Shape := ⟨3, ![4, 1024, 256]⟩
abbrev S4x1024 : Shape := ⟨2, ![4, 1024]⟩
abbrev S4x1024x1 : Shape := ⟨3, ![4, 1024, 1]⟩
abbrev S4x1024x1024 : Shape := ⟨3, ![4, 1024, 1024]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .bf16⟩
  | .hbm, ⟨3, _⟩ => ⟨S4x4096, .f32⟩
  | .hbm, ⟨4, _⟩ => ⟨S4x4096x256, .f32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S4x1024x256, .f32⟩
  | .local _ .vmem, ⟨1, _⟩ => ⟨S4x1024x256, .f32⟩
  | .local _ .vmem, ⟨2, _⟩ => ⟨S4x1024x256, .bf16⟩
  | .local _ .vmem, ⟨3, _⟩ => ⟨S4x1024x256, .bf16⟩
  | .local _ .vmem, ⟨4, _⟩ => ⟨S4x1024, .f32⟩
  | .local _ .vmem, ⟨5, _⟩ => ⟨S4x1024, .f32⟩
  | .local _ .vmem, ⟨6, _⟩ => ⟨S4x1024x1, .f32⟩
  | .local _ .vmem, ⟨7, _⟩ => ⟨S4x1024x1, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_24 : BitVec 32 := 0#32
  let v33 : BitVec 1 := Scalar.cmpi .ne v32 c0_i32_24
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S4x1024x1_S4x1024x1_0_0_0 : ∀ a, (![0, 0, 0] : Fin 3 → Nat) a + S4x1024x1.size a ≤ S4x1024x1.size a
  h_S4x1024x1 : 0 < S4x1024x1.numel
  shapeCasts_S4x1024x1_S4x1024x1 : S4x1024x1.ShapeCasts S4x1024x1
  inb_S4x1024x256_S4x1024x256_0_0_0 : ∀ a, (![0, 0, 0] : Fin 3 → Nat) a + S4x1024x256.size a ≤ S4x1024x256.size a
  h_S4x1024x256 : 0 < S4x1024x256.numel
  shapeCasts_S4x1024x256_S4x1024x256 : S4x1024x256.ShapeCasts S4x1024x256
  reduces_S4x1024x1024_S4x1024 : S4x1024x1024.Reduces [2] S4x1024
  shapeCasts_S4x1024_S4x1024x1 : S4x1024.ShapeCasts S4x1024x1
  broadcasts_S4x1024x1_S4x1024x1024 : S4x1024x1.Broadcasts S4x1024x1024
  shapeCasts_S4x1024x1_S4x1024 : S4x1024x1.ShapeCasts S4x1024
  inb_S4x1024_S4x1024_0_0 : ∀ a, (![0, 0] : Fin 2 → Nat) a + S4x1024.size a ≤ S4x1024.size a
  h_S4x1024 : 0 < S4x1024.numel
  reducesTo_S4x4096x256_S4x4096_d2 : S4x4096x256.ReducesTo [2] S4x4096
  h_S_ : 0 < S_.numel
  bcast_S_S4x4096 : S_.BroadcastsInDim S4x4096 (![] : Fin 0 → Fin S4x4096.rank)
  reducesTo_S4x4096_S_d0_1 : S4x4096.ReducesTo [0, 1] S_
  dot_S4x1024x256_S4x1024x256_S4x1024x1024_2_2_1_1_0_0_wf : DotDims.WF S4x1024x256 S4x1024x256 S4x1024x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x256.size a ≤ S4x4096x256.size a
  hwx0_0 : ∀ i : grid0.Coords, EltTy.bits .f32 = 32 ∨ (Rect.block (s := S4x4096x256) S4x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x256.size a ≤ S4x4096x256.size a
  hwx0_1 : ∀ i : grid0.Coords, EltTy.bits .bf16 = 32 ∨ (Rect.block (s := S4x4096x256) S4x1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x4096.size a
  hwx0_2 : ∀ i : grid0.Coords, EltTy.bits .f32 = 32 ∨ (Rect.block (s := S4x4096) S4x1024.size (cc0_transform_2 i) (hinb0_2 i)).WholeWords (EltTy.packing .f32)

variable [Facts₀]

def dot_S4x1024x256_S4x1024x256_S4x1024x1024_2_2_1_1_0_0 : DotDims S4x1024x256 S4x1024x256 S4x1024x1024 where
  lhsContracting := [2]
  rhsContracting := [2]
  lhsNonContracting := [1]
  rhsNonContracting := [1]
  lhsBatch := [0]
  rhsBatch := [0]
  wf := dot_S4x1024x256_S4x1024x256_S4x1024x1024_2_2_1_1_0_0_wf

abbrev win0_0 : Pipeline.Window sig grid0 :=
  Pipeline.Window.ofSpec (Memref.whole main_arg1) S4x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S4096x4096 : Shape := ⟨2, ![4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4x4096x4096, .i1⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S4096x4096_S4x4096x4096_1_2 : S4096x4096.BroadcastsInDim S4x4096x4096 (![1, 2] : Fin 2 → Fin S4x4096x4096.rank)
  reducesTo_S4x4096_S_d0_1 : S4x4096.ReducesTo [0, 1] S_
  dot_S4x4096x256_S4x4096x256_S4x4096x4096_2_2_1_1_0_0_wf : DotDims.WF S4x4096x256 S4x4096x256 S4x4096x4096 [2] [2] [1] [1] [0] [0]

variable [Facts₀]

def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf

class Facts : Prop extends Facts₀ where

variable [Facts]
-- ==== Proof.KernelFound.lean ====
/-
  What each case of the kernel body leaves in the two carried scratch arrays and in the output block, as the body's
  arithmetic applied to what it loaded.

  At the first key block of a query tile the body first stores (-∞, 0) into the carried pair and reads them back, so the
  pair it leaves is the update of (-∞, 0); at the other key blocks it is the update of what the point before left; at the
  last key block the output block is the running maximum plus the logarithm of the running sum just stored.
-/
import proofs.«166531_j1056561955228_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First key block: the running maximum left is the update of -∞. -/
theorem max_first (c : Dev nD) (i : grid0.Coords) (arg2 : Memref sig .tc .vmem S4x1024x256 .f32) (harg2 : arg2.IsWhole) (arg3 : Memref sig .tc .vmem S4x1024x256 .bf16) (harg3 : arg3.IsWhole) (arg4 : Memref sig .tc .vmem S4x1024 .f32) (harg4 : arg4.IsWhole) (arg5 : Memref sig .tc .vmem S4x1024x1 .f32) (harg5 : arg5.IsWhole) (arg6 : Memref sig .tc .vmem S4x1024x1 .f32) (harg6 : arg6.IsWhole) (hc0 : cond0_0 i) (hc1 : ¬cond0_1 i)
    (x0 : Vec F S4x1024x256 .f32) (x1 : Vec F S4x1024x256 .bf16) :
    sout0_A_0 c i arg2 harg2 arg3 harg3 arg4 harg4 arg5 harg5 arg6 harg6 hc0 hc1 x0 x1 = k0_pay1 (k0_pay6 x0 x1 k0_pay3) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S4x1024x1) hz3]
  simp only [View.readAt_eq_ld, harg2.read_unread, harg3.read_unread, harg5.read_unread, harg6.read_unread,
    View.ld_unit_zero (S := S4x1024x256) hz3, View.ld_unit_zero (S := S4x1024x1) hz3,
    View.readCov_unit_zero (S := S4x1024x1) _ hz3]

/-- First key block: the running sum left is the update of (−∞, 0). -/
theorem sum_first (c : Dev nD) (i : grid0.Coords) (arg2 : Memref sig .tc .vmem S4x1024x256 .f32) (harg2 : arg2.IsWhole) (arg3 : Memref sig .tc .vmem S4x1024x256 .bf16) (harg3 : arg3.IsWhole) (arg4 : Memref sig .tc .vmem S4x1024 .f32) (harg4 : arg4.IsWhole) (arg5 : Memref sig .tc .vmem S4x1024x1 .f32) (harg5 : arg5.IsWhole) (arg6 : Memref sig .tc .vmem S4x1024x1 .f32) (harg6 : arg6.IsWhole) (hc0 : cond0_0 i) (hc1 : ¬cond0_1 i)
    (x0 : Vec F S4x1024x256 .f32) (x1 : Vec F S4x1024x256 .bf16) :
    sout0_A_1 c i arg2 harg2 arg3 harg3 arg4 harg4 arg5 harg5 arg6 harg6 hc0 hc1 x0 x1 = k0_pay7 x0 x1 k0_pay3 k0_pay3 k0_pay4 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S4x1024x1) hz3]
  simp only [View.readAt_eq_ld, harg2.read_unread, harg3.read_unread, harg5.read_unread, harg6.read_unread,
    View.ld_unit_zero (S := S4x1024x256) hz3, View.ld_unit_zero (S := S4x1024x1) hz3,
    View.readCov_unit_zero (S := S4x1024x1) _ hz3]

/-- A middle key block: the update of the pair the point before left. -/
theorem max_mid (c : Dev nD) (i : grid0.Coords) (arg2 : Memref sig .tc .vmem S4x1024x256 .f32) (harg2 : arg2.IsWhole) (arg3 : Memref sig .tc .vmem S4x1024x256 .bf16) (harg3 : arg3.IsWhole) (arg4 : Memref sig .tc .vmem S4x1024 .f32) (harg4 : arg4.IsWhole) (arg5 : Memref sig .tc .vmem S4x1024x1 .f32) (harg5 : arg5.IsWhole) (arg6 : Memref sig .tc .vmem S4x1024x1 .f32) (harg6 : arg6.IsWhole) (hc0 : ¬cond0_0 i) (hc1 : ¬cond0_1 i)
    (x0 : Vec F S4x1024x256 .f32) (x1 : Vec F S4x1024x256 .bf16) (xs0 xs1 : Vec F S4x1024x1 .f32) :
    sout0_B_0 c i arg2 harg2 arg3 harg3 arg4 harg4 arg5 harg5 arg6 harg6 hc0 hc1 x0 x1 xs0 xs1 = k0_pay1 (k0_pay6 x0 x1 xs0) := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S4x1024x1) hz3]
  simp only [View.readAt_eq_ld, harg2.read_unread, harg3.read_unread, harg5.read_unread, harg6.read_unread,
    View.ld_unit_zero (S := S4x1024x256) hz3, View.ld_unit_zero (S := S4x1024x1) hz3,
    View.readCov_unit_zero (S := S4x1024x1) _ hz3]

theorem sum_mid (c : Dev nD) (i : grid0.Coords) (arg2 : Memref sig .tc .vmem S4x1024x256 .f32) (harg2 : arg2.IsWhole) (arg3 : Memref sig .tc .vmem S4x1024x256 .bf16) (harg3 : arg3.IsWhole) (arg4 : Memref sig .tc .vmem S4x1024 .f32) (harg4 : arg4.IsWhole) (arg5 : Memref sig .tc .vmem S4x1024x1 .f32) (harg5 : arg5.IsWhole) (arg6 : Memref sig .tc .vmem S4x1024x1 .f32) (harg6 : arg6.IsWhole) (hc0 : ¬cond0_0 i) (hc1 : ¬cond0_1 i)
    (x0 : Vec F S4x1024x256 .f32) (x1 : Vec F S4x1024x256 .bf16) (xs0 xs1 : Vec F S4x1024x1 .f32) :
    sout0_B_1 c i arg2 harg2 arg3 harg3 arg4 harg4 arg5 harg5 arg6 harg6 hc0 hc1 x0 x1 xs0 xs1 = k0_pay7 x0 x1 xs0 xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S4x1024x1) hz3]
  simp only [View.readAt_eq_ld, harg2.read_unread, harg3.read_unread, harg5.read_unread, harg6.read_unread,
    View.ld_unit_zero (S := S4x1024x256) hz3, View.ld_unit_zero (S := S4x1024x1) hz3,
    View.readCov_unit_zero (S := S4x1024x1) _ hz3]

/-- The last key block: the same update, and the output block from the pair just stored. -/
theorem max_last (c : Dev nD) (i : grid0.Coords) (arg2 : Memref sig .tc .vmem S4x1024x256 .f32) (harg2 : arg2.IsWhole) (arg3 : Memref sig .tc .vmem S4x1024x256 .bf16) (harg3 : arg3.IsWhole) (arg4 : Memref sig .tc .vmem S4x1024 .f32) (harg4 : arg4.IsWhole) (arg5 : Memref sig .tc .vmem S4x1024x1 .f32) (harg5 : arg5.IsWhole) (arg6 : Memref sig .tc .vmem S4x1024x1 .f32) (harg6 : arg6.IsWhole) (hc0 : ¬cond0_0 i) (hc1 : cond0_1 i)
    (x0 : Vec F S4x1024x256 .f32) (x1 : Vec F S4x1024x256 .bf16) (xs0 xs1 : Vec F S4x1024x1 .f32) :
    sout0_C_0 c i arg2 harg2 arg3 harg3 arg4 harg4 arg5 harg5 arg6 harg6 hc0 hc1 x0 x1 xs0 xs1 = k0_pay1 (k0_pay6 x0 x1 xs0) := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S4x1024x1) hz3]
  simp only [View.readAt_eq_ld, harg2.read_unread, harg3.read_unread, harg5.read_unread, harg6.read_unread,
    View.ld_unit_zero (S := S4x1024x256) hz3, View.ld_unit_zero (S := S4x1024x1) hz3,
    View.readCov_unit_zero (S := S4x1024x1) _ hz3]

theorem sum_last (c : Dev nD) (i : grid0.Coords) (arg2 : Memref sig .tc .vmem S4x1024x256 .f32) (harg2 : arg2.IsWhole) (arg3 : Memref sig .tc .vmem S4x1024x256 .bf16) (harg3 : arg3.IsWhole) (arg4 : Memref sig .tc .vmem S4x1024 .f32) (harg4 : arg4.IsWhole) (arg5 : Memref sig .tc .vmem S4x1024x1 .f32) (harg5 : arg5.IsWhole) (arg6 : Memref sig .tc .vmem S4x1024x1 .f32) (harg6 : arg6.IsWhole) (hc0 : ¬cond0_0 i) (hc1 : cond0_1 i)
    (x0 : Vec F S4x1024x256 .f32) (x1 : Vec F S4x1024x256 .bf16) (xs0 xs1 : Vec F S4x1024x1 .f32) :
    sout0_C_1 c i arg2 harg2 arg3 harg3 arg4 harg4 arg5 harg5 arg6 harg6 hc0 hc1 x0 x1 xs0 xs1 = k0_pay7 x0 x1 xs0 xs0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero (S := S4x1024x1) hz3]
  simp only [View.readAt_eq_ld, harg2.read_unread, harg3.read_unread, harg5.read_unread, harg6.read_unread,
    View.ld_unit_zero (S := S4x1024x256) hz3, View.ld_unit_zero (S := S4x1024x1) hz3,
    View.readCov_unit_zero (S := S4x1024x1) _ hz3]

theorem out_last (c : Dev nD) (i : grid0.Coords) (arg2 : Memref sig .tc .vmem S4x1024x256 .f32) (harg2 : arg2.IsWhole) (arg3 : Memref sig .tc .vmem S4x1024x256 .bf16) (harg3 : arg3.IsWhole) (arg4 : Memref sig .tc .vmem S4x1024 .f32) (harg4 : arg4.IsWhole) (arg5 : Memref sig .tc .vmem S4x1024x1 .f32) (harg5 : arg5.IsWhole) (arg6 : Memref sig .tc .vmem S4x1024x1 .f32) (harg6 : arg6.IsWhole) (hc0 : ¬cond0_0 i) (hc1 : cond0_1 i)
    (x0 : Vec F S4x1024x256 .f32) (x1 : Vec F S4x1024x256 .bf16) (xs0 xs1 : Vec F S4x1024x1 .f32) :
    out0_C_2 c i arg2 harg2 arg3 harg3 arg4 harg4 arg5 harg5 arg6 harg6 hc0 hc1 x0 x1 xs0 xs1 = k0_pay2 (k0_pay1 (k0_pay6 x0 x1 xs0)) (k0_pay7 x0 x1 xs0 xs0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S4x1024) hz2]
  simp only [View.readAt_eq_ld, harg2.read_unread, harg3.read_unread, harg5.read_unread, harg6.read_unread,
    View.ld_unit_zero (S := S4x1024x256) hz3, View.ld_unit_zero (S := S4x1024x1) hz3,
    View.readCov_unit_zero (S := S4x1024x1) _ hz3]

end Cert.KernelIdeal.Found

end
-- ==== Proof.LibReduceExtremum.lean ====
/-
  Reductions by maximum and minimum over the extended reals, read as suprema and infima.

  On the extended reals `max` and `min` are the join and the meet of a complete lattice whose least
  element is `-∞` and whose greatest is `+∞`. A fold of `max` that starts from `-∞` over a finite
  family is therefore the supremum of the family, whatever the order of the fold, and a fold of `min`
  from `+∞` is its infimum. The statements below read the host's `reduce` and a kernel's
  `multi_reduction` that way: over every axis at once (the result has one index, and the value there
  is the supremum over every source index), and over one axis (the value at a result index is the
  supremum over that axis's coordinates). A supremum over all indices does not change when the
  family is re-indexed along a surjection, and it is the supremum over the result indices of the
  one-axis suprema.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

namespace Idealize.ShloMosaic.ReduceExtremum

open Idealize.ShloMosaic

/-! ## The two infinities as bit patterns -/

/-- The f32 pattern `0xFF800000` (sign 1, exponent all ones, fraction 0) denotes `-∞`, the least extended real. -/
theorem ofBits_negInf_f32 : Ideal.ofBits .f32 0xFF800000#32 = ⊥ := by simp [Ideal.ofBits, Ideal.ieee]

/-- The f32 pattern `0x7F800000` (sign 0, exponent all ones, fraction 0) denotes `+∞`, the greatest extended real. -/
theorem ofBits_posInf_f32 : Ideal.ofBits .f32 0x7F800000#32 = ⊤ := by simp [Ideal.ofBits, Ideal.ieee]

/-! ## Folds of `max` from `-∞` and of `min` from `+∞` -/

/-- A fold of `max` from `-∞` over a finite set is the supremum over the set. -/
theorem fold_max_bot {ι : Type} (S : Finset ι) (x : ι → EReal) :
    S.fold max ⊥ x = ⨆ i ∈ S, x i := by
  rw [← Finset.sup_eq_iSup]; rfl

/-- A fold of `min` from `+∞` over a finite set is the infimum over the set. -/
theorem fold_min_top {ι : Type} (S : Finset ι) (x : ι → EReal) :
    S.fold min ⊤ x = ⨅ i ∈ S, x i := by
  rw [← Finset.inf_eq_iInf]; rfl

/-- Over a whole finite type: the fold of `max` from `-∞` is the supremum of the family. -/
theorem fold_max_bot_univ {ι : Type} [Fintype ι] (x : ι → EReal) :
    (Finset.univ : Finset ι).fold max ⊥ x = ⨆ i, x i := by
  rw [fold_max_bot]; simp

/-- Over a whole finite type: the fold of `min` from `+∞` is the infimum of the family. -/
theorem fold_min_top_univ {ι : Type} [Fintype ι] (x : ι → EReal) :
    (Finset.univ : Finset ι).fold min ⊤ x = ⨅ i, x i := by
  rw [fold_min_top]; simp

/-! ## A reduction over every axis: the supremum, or the infimum, of the whole array -/

section AllAxes
variable {s t u : Shape} {axes : List (Fin s.rank)} {φ : FTy}

/-- A result shape of rank zero has no axis, so each of its axes has size one. -/
theorem size_eq_one_of_rank_zero {d : Fin 0 → Nat} (b : Fin (⟨0, d⟩ : Shape).rank) : (⟨0, d⟩ : Shape).size b = 1 :=
  b.elim0

/-- The host's reduction by `max` into a shape whose every axis has size one (every source index reduces to the one
    result index), started from `-∞`, is at that index the supremum of the source over ALL its indices. -/
theorem hostReduce_max_all (x : s.Idx → EReal) (init : u.Idx → EReal) (h : s.ReducesTo axes t) (hu : 0 < u.numel)
    (ht : ∀ b, t.size b = 1) (hinit : init (Shape.Idx.first hu) = ⊥) (j : t.Idx) :
    Host.reduce (FloatOps.maximumf (F := Ideal) (φ := φ)) x init h hu j = ⨆ i : s.Idx, x i := by
  rw [Host.reduce_eq_fold, hinit,
    Finset.filter_true_of_mem fun i _ => funext fun b => Fin.ext (by
      have := (h.drop i b).isLt; have := (j b).isLt; have := ht b; omega)]
  exact fold_max_bot_univ x

/-- The same for `min` started from `+∞`: the infimum of the source over all its indices. -/
theorem hostReduce_min_all (x : s.Idx → EReal) (init : u.Idx → EReal) (h : s.ReducesTo axes t) (hu : 0 < u.numel)
    (ht : ∀ b, t.size b = 1) (hinit : init (Shape.Idx.first hu) = ⊤) (j : t.Idx) :
    Host.reduce (FloatOps.minimumf (F := Ideal) (φ := φ)) x init h hu j = ⨅ i : s.Idx, x i := by
  rw [Host.reduce_eq_fold, hinit,
    Finset.filter_true_of_mem fun i _ => funext fun b => Fin.ext (by
      have := (h.drop i b).isLt; have := (j b).isLt; have := ht b; omega)]
  exact fold_min_top_univ x

/-- In the form a program prints it: the f32 maximum over all axes, from the constant `0xFF800000` (`-∞`), is the
    constant array whose value is the supremum of the source. -/
theorem hostReduce_max_all_negInf (x : FVec Ideal s .f32) (h : s.ReducesTo axes t) (hu : 0 < u.numel)
    (ht : ∀ b, t.size b = 1) :
    Host.reduce FloatOps.maximumf x (constant (F := Ideal) u .f32 0xFF800000#32) h hu = fun _ => ⨆ i : s.Idx, x i :=
  funext fun j => hostReduce_max_all (φ := .f32) x _ h hu ht ofBits_negInf_f32 j

/-- The f32 minimum over all axes, from the constant `0x7F800000` (`+∞`), is the constant array whose value is the
    infimum of the source. -/
theorem hostReduce_min_all_posInf (x : FVec Ideal s .f32) (h : s.ReducesTo axes t) (hu : 0 < u.numel)
    (ht : ∀ b, t.size b = 1) :
    Host.reduce FloatOps.minimumf x (constant (F := Ideal) u .f32 0x7F800000#32) h hu = fun _ => ⨅ i : s.Idx, x i :=
  funext fun j => hostReduce_min_all (φ := .f32) x _ h hu ht ofBits_posInf_f32 j

/-- Into a result of rank zero (a scalar) no condition on the result's sizes is left. -/
theorem hostReduce_max_scalar_negInf {d : Fin 0 → Nat} (x : FVec Ideal s .f32) (h : s.ReducesTo axes ⟨0, d⟩)
    (hu : 0 < u.numel) :
    Host.reduce FloatOps.maximumf x (constant (F := Ideal) u .f32 0xFF800000#32) h hu = fun _ => ⨆ i : s.Idx, x i :=
  hostReduce_max_all_negInf x h hu size_eq_one_of_rank_zero

theorem hostReduce_min_scalar_posInf {d : Fin 0 → Nat} (x : FVec Ideal s .f32) (h : s.ReducesTo axes ⟨0, d⟩)
    (hu : 0 < u.numel) :
    Host.reduce FloatOps.minimumf x (constant (F := Ideal) u .f32 0x7F800000#32) h hu = fun _ => ⨅ i : s.Idx, x i :=
  hostReduce_min_all_posInf x h hu size_eq_one_of_rank_zero

end AllAxes

/-! ## Re-indexing: a supremum over all indices does not see the arrangement -/

section Reindex
variable {s s' t t' u u' : Shape} {axes : List (Fin s.rank)} {axes' : List (Fin s'.rank)} {φ : FTy}

/-- The maximum over all axes of an array read through a surjective index map `e` (every source element is read at
    least once: a reshape, a transpose, their composite) is the maximum over all axes of the array itself. -/
theorem hostReduce_max_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊥) (hinit' : init' (Shape.Idx.first hu') = ⊥) (j : t.Idx) (j' : t'.Idx) :
    Host.reduce (FloatOps.maximumf (F := Ideal) (φ := φ)) (fun i => x (e i)) init' h' hu' j'
      = Host.reduce (FloatOps.maximumf (F := Ideal) (φ := φ)) x init h hu j := by
  rw [hostReduce_max_all (φ := φ) _ init' h' hu' ht' hinit', hostReduce_max_all (φ := φ) x init h hu ht hinit]
  exact he.iSup_comp x

/-- The same for the minimum over all axes. -/
theorem hostReduce_min_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊤) (hinit' : init' (Shape.Idx.first hu') = ⊤) (j : t.Idx) (j' : t'.Idx) :
    Host.reduce (FloatOps.minimumf (F := Ideal) (φ := φ)) (fun i => x (e i)) init' h' hu' j'
      = Host.reduce (FloatOps.minimumf (F := Ideal) (φ := φ)) x init h hu j := by
  rw [hostReduce_min_all (φ := φ) _ init' h' hu' ht' hinit', hostReduce_min_all (φ := φ) x init h hu ht hinit]
  exact he.iInf_comp x

/-- A reshape (the same elements in row-major order under another shape) reads every source element exactly once, so
    the supremum of the reshaped array is the supremum of the array. -/
theorem iSup_shapeCast (x : s.Idx → EReal) (h : s.ShapeCasts t) : ⨆ j : t.Idx, shapeCast t x h j = ⨆ i : s.Idx, x i :=
  (Shape.reshapeEquiv h).iSup_comp (g := x)

theorem iInf_shapeCast (x : s.Idx → EReal) (h : s.ShapeCasts t) : ⨅ j : t.Idx, shapeCast t x h j = ⨅ i : s.Idx, x i :=
  (Shape.reshapeEquiv h).iInf_comp (g := x)

/-- Every source index is read by some result index of a transpose: the result index whose coordinate on axis `b` is
    the source's coordinate on axis `perm[b]`. -/
theorem transposes_src_surjective (perm : List (Fin s.rank)) (h : s.Transposes perm t) :
    Function.Surjective (h.src) := by
  intro k
  let j : t.Idx := fun b => ⟨(k perm[b.cast h.2.1]).val, by rw [h.2.2 b]; exact (k _).isLt⟩
  exact ⟨j, transpose_apply perm (fun i : s.Idx => i) h j k fun _ => rfl⟩

/-- So the supremum of a transposed array is the supremum of the array. -/
theorem iSup_transpose (perm : List (Fin s.rank)) (x : s.Idx → EReal) (h : s.Transposes perm t) :
    ⨆ j : t.Idx, transpose t perm x h j = ⨆ i : s.Idx, x i :=
  (transposes_src_surjective perm h).iSup_comp x

theorem iInf_transpose (perm : List (Fin s.rank)) (x : s.Idx → EReal) (h : s.Transposes perm t) :
    ⨅ j : t.Idx, transpose t perm x h j = ⨅ i : s.Idx, x i :=
  (transposes_src_surjective perm h).iInf_comp x

/-- The largest absolute value (the supremum of `max x (-x)`) of a transposed array is that of the array. -/
theorem iSup_abs_transpose (perm : List (Fin s.rank)) (x : s.Idx → EReal) (h : s.Transposes perm t) :
    ⨆ j : t.Idx, max (transpose t perm x h j) (-(transpose t perm x h j)) = ⨆ i : s.Idx, max (x i) (-(x i)) :=
  iSup_transpose perm (fun i => max (x i) (-(x i))) h

/-- The largest absolute value of a reshaped array is that of the array. -/
theorem iSup_abs_shapeCast (x : s.Idx → EReal) (h : s.ShapeCasts t) :
    ⨆ j : t.Idx, max (shapeCast t x h j) (-(shapeCast t x h j)) = ⨆ i : s.Idx, max (x i) (-(x i)) :=
  iSup_shapeCast (fun i => max (x i) (-(x i))) h

end Reindex

/-! ## A reduction over one axis: the supremum over that axis's coordinates -/

section OneAxis
variable {s t u : Shape} {a : Fin s.rank} {φ : FTy}

/-- The host's reduction by `max` over ONE axis, started from `-∞`, is at result index `j` the supremum over the
    coordinates `k` of that axis of the source at `j` with `k` inserted on the axis. -/
theorem hostReduce_max_single (x : s.Idx → EReal) (init : u.Idx → EReal) (h' : s.ReducesTo [a] t) (h : s.Reduces [a] t)
    (hu : 0 < u.numel) (hinit : init (Shape.Idx.first hu) = ⊥) (j : t.Idx) :
    Host.reduce (FloatOps.maximumf (F := Ideal) (φ := φ)) x init h' hu j = ⨆ k : Fin (s.size a), x (h.lift j k) := by
  rw [Host.reduce_eq_fold_single _ x init h' h hu j, hinit]
  exact fold_max_bot_univ _

/-- The same for `min` from `+∞`. -/
theorem hostReduce_min_single (x : s.Idx → EReal) (init : u.Idx → EReal) (h' : s.ReducesTo [a] t) (h : s.Reduces [a] t)
    (hu : 0 < u.numel) (hinit : init (Shape.Idx.first hu) = ⊤) (j : t.Idx) :
    Host.reduce (FloatOps.minimumf (F := Ideal) (φ := φ)) x init h' hu j = ⨅ k : Fin (s.size a), x (h.lift j k) := by
  rw [Host.reduce_eq_fold_single _ x init h' h hu j, hinit]
  exact fold_min_top_univ _

/-- In the printed form: the f32 maximum over one axis from the constant `0xFF800000`. -/
theorem hostReduce_max_single_negInf (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) :=
  hostReduce_max_single (φ := .f32) x _ h' h hu ofBits_negInf_f32 j

/-- A kernel's `multi_reduction <maximumf>` over one axis whose accumulator pattern denotes `-∞` is at `j` the
    supremum over that axis's coordinates. -/
theorem multiReduction_max_single (src : FVec Ideal s φ) (acc : BitVec φ.bits) (h : s.Reduces [a] t)
    (hφ : FKind.Formats φ) (hacc : acc = FKind.maximumf.neutral φ hφ) (hbot : Ideal.ofBits φ acc = ⊥) (j : t.Idx) :
    multiReduction .maximumf [a] t src acc h hφ hacc j = ⨆ k : Fin (s.size a), src (h.lift j k) := by
  rw [Ideal.multiReduction_maximumf_single]
  show (Finset.univ : Finset (Fin (s.size a))).fold max (Ideal.ofBits φ acc) (src ∘ h.lift j) = _
  rw [hbot]
  exact fold_max_bot_univ _

/-- At f32 with the accumulator `0xFF800000`, as a kernel prints a row maximum. -/
theorem multiReduction_max_single_f32 (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) :=
  multiReduction_max_single src _ h hφ hacc ofBits_negInf_f32 j

/-- The same with the accumulator's side condition spelt as a printed program carries it (a proof that the
    pattern equals itself), so that the lemma applies to the printed term as it stands. -/
theorem multiReduction_max_single_f32_printed (src : FVec Ideal s .f32) (h : s.Reduces [a] t)
    (hφ : FKind.Formats .f32) (hacc : (0xFF800000#32 : BitVec 32) = 0xFF800000#32) (j : t.Idx) :
    multiReduction .maximumf [a] t src 0xFF800000#32 h hφ hacc j = ⨆ k : Fin (s.size a), src (h.lift j k) :=
  multiReduction_max_single_f32 src h hφ hacc j

/-- The supremum over all indices is the supremum, over the indices with one axis dropped, of the suprema along that
    axis: every index is its own image with that axis dropped, with its own coordinate put back. -/
theorem iSup_eq_iSup_iSup_lift (h : s.Reduces [a] t) (x : s.Idx → EReal) :
    ⨆ i : s.Idx, x i = ⨆ j : t.Idx, ⨆ k : Fin (s.size a), x (h.lift j k) := by
  refine le_antisymm (iSup_le fun i => ?_) (iSup_le fun j => iSup_le fun k => le_iSup x _)
  rw [← h.lift_drop i]
  exact le_iSup_of_le (h.drop i) (le_iSup (fun k => x (h.lift (h.drop i) k)) (i a))

/-- The same for infima. -/
theorem iInf_eq_iInf_iInf_lift (h : s.Reduces [a] t) (x : s.Idx → EReal) :
    ⨅ i : s.Idx, x i = ⨅ j : t.Idx, ⨅ k : Fin (s.size a), x (h.lift j k) := by
  refine le_antisymm (le_iInf fun j => le_iInf fun k => iInf_le x _) (le_iInf fun i => ?_)
  rw [← h.lift_drop i]
  exact iInf_le_of_le (h.drop i) (iInf_le (fun k => x (h.lift (h.drop i) k)) (i a))

/-- Along an axis of size one (a kept unit axis, as in a column `[…, 1]`) the inner infimum is the one value. -/
theorem iInf_eq_iInf_lift_of_size_one (h : s.Reduces [a] t) (hs : s.size a = 1) (x : s.Idx → EReal) :
    ⨅ i : s.Idx, x i = ⨅ j : t.Idx, x (h.lift j ⟨0, by omega⟩) := by
  rw [iInf_eq_iInf_iInf_lift h x]
  refine iInf_congr fun j => ?_
  haveI : Unique (Fin (s.size a)) := by rw [hs]; exact inferInstance
  rw [iInf_unique]
  exact congrArg (fun k => x (h.lift j k)) (Subsingleton.elim _ _)

theorem iSup_eq_iSup_lift_of_size_one (h : s.Reduces [a] t) (hs : s.size a = 1) (x : s.Idx → EReal) :
    ⨆ i : s.Idx, x i = ⨆ j : t.Idx, x (h.lift j ⟨0, by omega⟩) := by
  rw [iSup_eq_iSup_iSup_lift h x]
  refine iSup_congr fun j => ?_
  haveI : Unique (Fin (s.size a)) := by rw [hs]; exact inferInstance
  rw [iSup_unique]
  exact congrArg (fun k => x (h.lift j k)) (Subsingleton.elim _ _)

end OneAxis

/-! ## The index with a coordinate put back on the last axis, by coordinates -/

section LastAxis
open Idealize.ShloMosaic.ValueIdx

/-- Rank 4, last axis dropped: the index over `j` with coordinate `k` on the last axis is `(j 0, j 1, j 2, k)`. -/
theorem lift_last4 {n0 n1 n2 n3 : Nat}
    (h : (⟨4, ![n0, n1, n2, n3]⟩ : Shape).Reduces [3] (⟨3, ![n0, n1, n2]⟩ : Shape))
    (j : (⟨3, ![n0, n1, n2]⟩ : Shape).Idx) (k : Fin n3) : h.lift j k = ix4 (j 0) (j 1) (j 2) k := by
  funext c; apply Fin.ext
  match c with | ⟨0, _⟩ => rfl | ⟨1, _⟩ => rfl | ⟨2, _⟩ => rfl | ⟨3, _⟩ => rfl

/-- Rank 2, last axis dropped: the index over `j` with coordinate `k` on the last axis is `(j 0, k)`. -/
theorem lift_last2 {n0 n1 : Nat}
    (h : (⟨2, ![n0, n1]⟩ : Shape).Reduces [1] (⟨1, ![n0]⟩ : Shape))
    (j : (⟨1, ![n0]⟩ : Shape).Idx) (k : Fin n1) : h.lift j k = ix2 (j 0) k := by
  funext c; apply Fin.ext
  match c with | ⟨0, _⟩ => rfl | ⟨1, _⟩ => rfl

/-- A supremum over all rank-4 indices is the nested supremum over the four coordinates. -/
theorem iSup_ix4 {n0 n1 n2 n3 : Nat} (f : (⟨4, ![n0, n1, n2, n3]⟩ : Shape).Idx → EReal) :
    ⨆ i, f i = ⨆ a : Fin n0, ⨆ b : Fin n1, ⨆ c : Fin n2, ⨆ d : Fin n3, f (ix4 a b c d) := by
  refine le_antisymm (iSup_le fun i => ?_)
    (iSup_le fun a => iSup_le fun b => iSup_le fun c => iSup_le fun d => le_iSup f _)
  rw [eq_ix4 i]
  exact le_iSup_of_le (i 0) (le_iSup_of_le (i 1) (le_iSup_of_le (i 2)
    (le_iSup (fun d => f (ix4 (i 0) (i 1) (i 2) d)) (i 3))))

/-- An infimum over all rank-4 indices is the nested infimum over the four coordinates. -/
theorem iInf_ix4 {n0 n1 n2 n3 : Nat} (f : (⟨4, ![n0, n1, n2, n3]⟩ : Shape).Idx → EReal) :
    ⨅ i, f i = ⨅ a : Fin n0, ⨅ b : Fin n1, ⨅ c : Fin n2, ⨅ d : Fin n3, f (ix4 a b c d) := by
  refine le_antisymm
    (le_iInf fun a => le_iInf fun b => le_iInf fun c => le_iInf fun d => iInf_le f _) (le_iInf fun i => ?_)
  rw [eq_ix4 i]
  exact iInf_le_of_le (i 0) (iInf_le_of_le (i 1) (iInf_le_of_le (i 2)
    (iInf_le (fun d => f (ix4 (i 0) (i 1) (i 2) d)) (i 3))))

/-- A supremum over all rank-3 indices is the nested supremum over the three coordinates. -/
theorem iSup_ix3 {n0 n1 n2 : Nat} (f : (⟨3, ![n0, n1, n2]⟩ : Shape).Idx → EReal) :
    ⨆ i, f i = ⨆ a : Fin n0, ⨆ b : Fin n1, ⨆ c : Fin n2, f (ix3 a b c) := by
  refine le_antisymm (iSup_le fun i => ?_) (iSup_le fun a => iSup_le fun b => iSup_le fun c => le_iSup f _)
  rw [eq_ix3 i]
  exact le_iSup_of_le (i 0) (le_iSup_of_le (i 1) (le_iSup (fun c => f (ix3 (i 0) (i 1) c)) (i 2)))

/-- An infimum over all rank-3 indices is the nested infimum over the three coordinates. -/
theorem iInf_ix3 {n0 n1 n2 : Nat} (f : (⟨3, ![n0, n1, n2]⟩ : Shape).Idx → EReal) :
    ⨅ i, f i = ⨅ a : Fin n0, ⨅ b : Fin n1, ⨅ c : Fin n2, f (ix3 a b c) := by
  refine le_antisymm (le_iInf fun a => le_iInf fun b => le_iInf fun c => iInf_le f _) (le_iInf fun i => ?_)
  rw [eq_ix3 i]
  exact iInf_le_of_le (i 0) (iInf_le_of_le (i 1) (iInf_le (fun c => f (ix3 (i 0) (i 1) c)) (i 2)))

end LastAxis

end Idealize.ShloMosaic.ReduceExtremum
-- ==== Proof.LibKeepdims3.lean ====
/-
  Layout operations that insert or stretch unit axes of a rank-3 array, read at an index given by its three
  coordinates.  Every statement is for an arbitrary element type and arbitrary extents; each is the library's
  general read-at-an-index lemma with the row-major positions (for a cast) or the per-axis rule (for a
  broadcast) worked out once.
-/
import Idealize.ShloMosaic.Lib.ValueIdx
import Idealize.ShloMosaic.Lib.Pipeline.Value

noncomputable section

namespace Keepdims3

open Idealize.ShloMosaic Idealize.ShloMosaic.ValueIdx

variable {α : Type}

/-- An [a, b] array cast to [a, b, 1], read at (p, q, u), is entry (p, q): the trailing unit axis carries no
    position. -/
theorem cast_trailing_unit {a b : Nat} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h _ _ ?_
  rw [Shape.rowMajor_val_two, Shape.rowMajor_val_three]
  show p.val * b + q.val = (p.val * b + q.val) * 1 + u.val
  have hu : u.val = 0 := by omega
  omega

/-- A [b] array cast to [1, b, 1], read at (z, q, u), is entry q. -/
theorem cast_both_units {b : Nat} (v : (⟨1, ![b]⟩ : Shape).Idx → α)
    (h : (⟨1, ![b]⟩ : Shape).ShapeCasts ⟨3, ![1, b, 1]⟩) (z : Fin 1) (q : Fin b) (u : Fin 1) :
    shapeCast ⟨3, ![1, b, 1]⟩ v h (ix3 z q u) = v (ix1 q) := by
  refine shapeCast_apply v h _ _ ?_
  rw [Shape.rowMajor_val_one, Shape.rowMajor_val_three]
  show q.val = (z.val * b + q.val) * 1 + u.val
  have hu : u.val = 0 := by omega
  have hz : z.val = 0 := by omega
  rw [hu, hz]; omega

/-- An [a, b, 1] array stretched along its last axis to [a, b, n], read at (p, q, r), is entry (p, q, 0). -/
theorem stretch_last {a b n : Nat} (ha : a ≠ 1) (hb : b ≠ 1) (v : (⟨3, ![a, b, 1]⟩ : Shape).Idx → α)
    (h : (⟨3, ![a, b, 1]⟩ : Shape).Broadcasts ⟨3, ![a, b, n]⟩) (p : Fin a) (q : Fin b) (r : Fin n) :
    broadcastTo ⟨3, ![a, b, n]⟩ v h (ix3 p q r) = v (ix3 p q (0 : Fin 1)) := by
  refine broadcastTo_apply v h _ _ fun d => ?_
  match d with
  | ⟨0, _⟩ => exact (if_neg (show ¬ a = 1 from ha)).symm
  | ⟨1, _⟩ => exact (if_neg (show ¬ b = 1 from hb)).symm
  | ⟨2, _⟩ => exact (if_pos (show (1 : Nat) = 1 from rfl)).symm

/-- A [1, b, 1] array stretched along its first and last axes to [a, b, n], read at (p, q, r), is entry
    (0, q, 0). -/
theorem stretch_outer {a b n : Nat} (hb : b ≠ 1) (v : (⟨3, ![1, b, 1]⟩ : Shape).Idx → α)
    (h : (⟨3, ![1, b, 1]⟩ : Shape).Broadcasts ⟨3, ![a, b, n]⟩) (p : Fin a) (q : Fin b) (r : Fin n) :
    broadcastTo ⟨3, ![a, b, n]⟩ v h (ix3 p q r) = v (ix3 (0 : Fin 1) q (0 : Fin 1)) := by
  refine broadcastTo_apply v h _ _ fun d => ?_
  match d with
  | ⟨0, _⟩ => exact (if_pos (show (1 : Nat) = 1 from rfl)).symm
  | ⟨1, _⟩ => exact (if_neg (show ¬ b = 1 from hb)).symm
  | ⟨2, _⟩ => exact (if_pos (show (1 : Nat) = 1 from rfl)).symm

end Keepdims3

end
-- ==== Proof.KernelPay.lean ====
/-
  What the kernel body computes from the blocks it loads, entry by entry, over the extended reals.

  At a grid point the body holds a block of 1024 query rows (of the second argument) and a block of 1024 key rows (of
  the first), for all four batches.  Its score block is S[b, q, j] = (∑ d, query[b, q, d] · key[b, j, d]) · 1.  With m and
  l the running maximum and running sum it carries for row (b, q), it leaves
    m' = max m (max over j of S[b, q, j]),
    l' = exp (m - m') · l + ∑ j, exp (S[b, q, j] - m'),
  and at the last key block it emits m' + log l'.  The carried pair starts at (-∞, 0).
-/
import proofs.«166531_j1056561955228_2_alg».proof.Proof.Gen.KernelIdeal.Skeleton
import proofs.«166531_j1056561955228_2_alg».proof.Proof.LibReduceExtremum
import proofs.«166531_j1056561955228_2_alg».proof.Proof.LibKeepdims3
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Cert.KernelIdeal.Facts₀
open Idealize.ShloMosaic Idealize.ShloMosaic.ValueIdx Idealize.ShloMosaic.ReduceExtremum

/-- The contraction's record: batch axis 0 of both operands, row axis 1 of each, contracted axis 2 of each. -/
abbrev DD : DotDims S4x1024x256 S4x1024x256 S4x1024x1024 := dot_S4x1024x256_S4x1024x256_S4x1024x1024_2_2_1_1_0_0

theorem lhs_0 (i : S4x1024x1024.Idx) (k : DD.contr.Idx) : (DD.lhsIdx i k 0).val = (i 0).val := by
  unfold DotDims.lhsIdx
  rw [dif_pos (show (0 : Fin S4x1024x256.rank) ∈ DD.lhsBatch by decide)]
  rfl
theorem lhs_1 (i : S4x1024x1024.Idx) (k : DD.contr.Idx) : (DD.lhsIdx i k 1).val = (i 1).val := by
  unfold DotDims.lhsIdx
  rw [dif_neg (show ¬(1 : Fin S4x1024x256.rank) ∈ DD.lhsBatch by decide),
    dif_pos (show (1 : Fin S4x1024x256.rank) ∈ DD.lhsNonContracting by decide)]
  rfl
theorem lhs_2 (i : S4x1024x1024.Idx) (k : DD.contr.Idx) : (DD.lhsIdx i k 2).val = (k ⟨0, by decide⟩).val :=
  DD.lhsIdx_val_of_single rfl i k
theorem rhs_0 (i : S4x1024x1024.Idx) (k : DD.contr.Idx) : (DD.rhsIdx i k 0).val = (i 0).val := by
  unfold DotDims.rhsIdx
  rw [dif_pos (show (0 : Fin S4x1024x256.rank) ∈ DD.rhsBatch by decide)]
  rfl
theorem rhs_1 (i : S4x1024x1024.Idx) (k : DD.contr.Idx) : (DD.rhsIdx i k 1).val = (i 2).val := by
  unfold DotDims.rhsIdx
  rw [dif_neg (show ¬(1 : Fin S4x1024x256.rank) ∈ DD.rhsBatch by decide),
    dif_pos (show (1 : Fin S4x1024x256.rank) ∈ DD.rhsNonContracting by decide)]
  rfl
theorem rhs_2 (i : S4x1024x1024.Idx) (k : DD.contr.Idx) : (DD.rhsIdx i k 2).val = (k ⟨0, by decide⟩).val :=
  DD.rhsIdx_val_of_single rfl i k

theorem lhs_at (b : Fin 4) (q j : Fin 1024) (k : DD.contr.Idx) (d : Fin 256)
    (hk : (k ⟨0, by decide⟩).val = d.val) : DD.lhsIdx (ix3 b q j) k = ix3 b q d :=
  funext fun a => Fin.ext (by
    match a with
    | ⟨0, _⟩ => exact lhs_0 _ _
    | ⟨1, _⟩ => exact lhs_1 _ _
    | ⟨2, _⟩ => exact (lhs_2 _ _).trans hk)

theorem rhs_at (b : Fin 4) (q j : Fin 1024) (k : DD.contr.Idx) (d : Fin 256)
    (hk : (k ⟨0, by decide⟩).val = d.val) : DD.rhsIdx (ix3 b q j) k = ix3 b j d :=
  funext fun a => Fin.ext (by
    match a with
    | ⟨0, _⟩ => exact rhs_0 _ _
    | ⟨1, _⟩ => exact rhs_1 _ _
    | ⟨2, _⟩ => exact (rhs_2 _ _).trans hk)

/-- The score block: entry (b, q, j) is the inner product of query row (b, q) and key row (b, j), times the literal 1. -/
theorem pay5_apply (x0 : Vec Ideal S4x1024x256 .f32) (x1 : Vec Ideal S4x1024x256 .bf16) (b : Fin 4) (q j : Fin 1024) :
    k0_pay5 (F := Ideal) x0 x1 (ix3 b q j)
      = (∑ d : Fin 256, x0 (ix3 b q d) * x1 (ix3 b j d)) * Ideal.ofBits .f32 0x3F800000#32 := by
  unfold k0_pay5
  refine (mulf_apply _ _ _).trans ?_
  refine congrArg₂ (· * ·) ?_ rfl
  refine (Ideal.matmul_constant_zero_apply DD none _ _ (ix3 b q j)).trans ?_
  rw [← Equiv.sum_comp (contrEquiv1 DD 256 rfl rfl).symm]
  refine Finset.sum_congr rfl fun d _ => ?_
  have hk := contrEquiv1_symm_val DD 256 rfl rfl d
  rw [lhs_at b q j _ d hk, rhs_at b q j _ d hk, shapeCast_self]
  rfl

/-- Putting coordinate k back on the last axis of (b, q). -/
theorem lift_last3 {n0 n1 n2 : Nat}
    (h : (⟨3, ![n0, n1, n2]⟩ : Shape).Reduces [2] (⟨2, ![n0, n1]⟩ : Shape))
    (j : (⟨2, ![n0, n1]⟩ : Shape).Idx) (k : Fin n2) : h.lift j k = ix3 (j 0) (j 1) k := by
  funext c; apply Fin.ext
  match c with | ⟨0, _⟩ => rfl | ⟨1, _⟩ => rfl | ⟨2, _⟩ => rfl

/-- An [a, b, 1] array cast to [a, b], read at (p, q), is entry (p, q, 0). -/
theorem cast_drop_trailing {α : Type} {a b : Nat} (v : (⟨3, ![a, b, 1]⟩ : Shape).Idx → α)
    (h : (⟨3, ![a, b, 1]⟩ : Shape).ShapeCasts ⟨2, ![a, b]⟩) (p : Fin a) (q : Fin b) :
    shapeCast ⟨2, ![a, b]⟩ v h (ix2 p q) = v (ix3 p q (0 : Fin 1)) := by
  refine shapeCast_apply v h _ _ ?_
  rw [Shape.rowMajor_val_two, Shape.rowMajor_val_three]
  show (p.val * b + q.val) * 1 + 0 = p.val * b + q.val
  omega

/-- The new running maximum of row (b, q): the old one against the largest score of the row in this key block. -/
theorem pay6_apply (x0 : Vec Ideal S4x1024x256 .f32) (x1 : Vec Ideal S4x1024x256 .bf16) (v10 : Vec Ideal S4x1024x1 .f32)
    (b : Fin 4) (q : Fin 1024) (u : Fin 1) :
    k0_pay6 (F := Ideal) x0 x1 v10 (ix3 b q u)
      = max (v10 (ix3 b q u)) (⨆ j : Fin 1024, k0_pay5 (F := Ideal) x0 x1 (ix3 b q j)) := by
  unfold k0_pay6
  refine (maximumf_apply _ _ _).trans ?_
  refine congrArg (max (v10 (ix3 b q u))) ?_
  refine (Keepdims3.cast_trailing_unit _ _ b q u).trans ?_
  refine (multiReduction_max_single_f32 (k0_pay5 (F := Ideal) x0 x1) Facts₀.reduces_S4x1024x1024_S4x1024 _ _ (ix2 b q)).trans ?_
  show (⨆ k : Fin 1024, k0_pay5 (F := Ideal) x0 x1 (Facts₀.reduces_S4x1024x1024_S4x1024.lift (ix2 b q) k)) = _
  exact iSup_congr fun k => congrArg _ (lift_last3 Facts₀.reduces_S4x1024x1024_S4x1024 (ix2 b q) k)

/-- The new running sum of row (b, q): the old one re-based to the new maximum, plus this key block's shifted exponentials. -/
theorem pay7_apply (x0 : Vec Ideal S4x1024x256 .f32) (x1 : Vec Ideal S4x1024x256 .bf16)
    (v10 v14 v20 : Vec Ideal S4x1024x1 .f32) (b : Fin 4) (q : Fin 1024) (u : Fin 1) :
    k0_pay7 (F := Ideal) x0 x1 v10 v14 v20 (ix3 b q u)
      = Ideal.exp (v14 (ix3 b q u) - k0_pay6 (F := Ideal) x0 x1 v10 (ix3 b q u)) * v20 (ix3 b q u)
        + ∑ j : Fin 1024, Ideal.exp (k0_pay5 (F := Ideal) x0 x1 (ix3 b q j) - k0_pay6 (F := Ideal) x0 x1 v10 (ix3 b q (0 : Fin 1))) := by
  unfold k0_pay7
  refine (congrFun (shapeCast_self _ _) _).trans ?_
  refine (addf_apply _ _ _).trans ?_
  refine congrArg₂ (· + ·) rfl ?_
  refine (Keepdims3.cast_trailing_unit _ _ b q u).trans ?_
  refine (Ideal.multiReduction_add_single _ 0x00000000#32 Facts₀.reduces_S4x1024x1024_S4x1024 _ _ (ix2 b q)).trans ?_
  show (∑ k : Fin 1024, _) = _
  refine Finset.sum_congr rfl fun k _ => ?_
  rw [lift_last3 Facts₀.reduces_S4x1024x1024_S4x1024 (ix2 b q) k]
  show Ideal.exp (k0_pay5 (F := Ideal) x0 x1 (ix3 b q k)
      - broadcastTo S4x1024x1024 (k0_pay6 (F := Ideal) x0 x1 v10) Facts₀.broadcasts_S4x1024x1_S4x1024x1024 (ix3 b q k)) = _
  rw [Keepdims3.stretch_last (by decide) (by decide) _ _ b q k]

/-- What the last key block emits for row (b, q): the running maximum plus the logarithm of the running sum. -/
theorem pay2_apply (v34 v35 : Vec Ideal S4x1024x1 .f32) (b : Fin 4) (q : Fin 1024) :
    k0_pay2 (F := Ideal) v34 v35 (ix2 b q) = v34 (ix3 b q (0 : Fin 1)) + Ideal.log (v35 (ix3 b q (0 : Fin 1))) := by
  unfold k0_pay2
  exact cast_drop_trailing _ _ b q

/-- The pair the first key block starts from: -∞ for the maximum, 0 for the sum. -/
theorem pay3_apply (i : S4x1024x1.Idx) : k0_pay3 (F := Ideal) i = ⊥ := by
  unfold k0_pay3
  refine (congrFun (shapeCast_self _ _) _).trans ?_
  exact ofBits_negInf_f32

theorem pay4_apply (i : S4x1024x1.Idx) : k0_pay4 (F := Ideal) i = 0 := by
  unfold k0_pay4
  refine (congrFun (shapeCast_self _ _) _).trans ?_
  exact Ideal.ofBits_zero_f32

/-- The stored running maximum is the computed one. -/
theorem pay1_eq (v13 : FVec Ideal S4x1024x1 .f32) : k0_pay1 (F := Ideal) v13 = v13 := by
  unfold k0_pay1
  exact shapeCast_self _ _

end Cert.KernelIdeal.Pay

end
-- ==== Proof.LibSoftmaxPeak.lean ====
/-
  The peak of a softmax, over the reals and then over the extended reals.

  For a row of real scores `s k` with maximum `m`, the shifted exponentials `e k = exp (s k - m)` lie in
  `(0, 1]`, and the maximising column has `e k = exp 0 = 1`. So the row's sum `l = ∑ k, e k` is at
  least `1`, every softmax entry `e k / l` is positive and at most `1 / l`, and the bound is attained at
  the maximising column: the largest absolute value in the row is `1 / l`. Over several rows the largest
  absolute value of all softmax entries is the largest `1 / l r`, and because `x ↦ 1 / x` reverses the
  order of positive numbers that is `1 / (the smallest l r)`. The last section restates this with every
  quantity an extended real and the operations those of the exact (ideal) reading of floats: the
  supremum of `|e / l|` over all entries is `1` divided by the infimum of the row sums.
-/
import Mathlib.Analysis.SpecialFunctions.Exp
import Mathlib.Data.EReal.Basic
import Mathlib.Data.EReal.Operations
import Mathlib.Data.EReal.Inv
import Idealize.ShloMosaic.PureOps.Ideal

namespace Idealize.ShloMosaic.SoftmaxPeak

open Idealize.ShloMosaic
open scoped BigOperators

/-! ## Over the reals -/

section Real
variable {ρ κ : Type} [Fintype ρ] [Fintype κ] [Nonempty ρ] [Nonempty κ] (s : ρ → κ → ℝ)

/-- The maximum of row `r` of the scores. -/
noncomputable def rowMax (r : ρ) : ℝ := Finset.univ.sup' Finset.univ_nonempty (s r)

/-- The shifted exponential `exp (s r k - max of row r)`. -/
noncomputable def expShift (r : ρ) (k : κ) : ℝ := Real.exp (s r k - rowMax s r)

/-- The sum of row `r` of the shifted exponentials. -/
noncomputable def rowSum (r : ρ) : ℝ := ∑ k, expShift s r k

/-- Every score is at most its row's maximum. -/
theorem le_rowMax (r : ρ) (k : κ) : s r k ≤ rowMax s r := Finset.le_sup' (s r) (Finset.mem_univ k)

/-- The row's maximum is attained at some column. -/
theorem exists_eq_rowMax (r : ρ) : ∃ k, s r k = rowMax s r := by
  obtain ⟨k, _, hk⟩ := Finset.exists_mem_eq_sup' Finset.univ_nonempty (s r)
  exact ⟨k, hk.symm⟩

/-- A shifted exponential is positive. -/
theorem expShift_pos (r : ρ) (k : κ) : 0 < expShift s r k := Real.exp_pos _

/-- A shifted exponential is at most `1`: its exponent is at most `0`. -/
theorem expShift_le_one (r : ρ) (k : κ) : expShift s r k ≤ 1 :=
  Real.exp_le_one_iff.2 (sub_nonpos.2 (le_rowMax s r k))

/-- At a maximising column the shifted exponential is `exp 0 = 1`. -/
theorem expShift_eq_one {r : ρ} {k : κ} (hk : s r k = rowMax s r) : expShift s r k = 1 := by
  unfold expShift; rw [hk, sub_self, Real.exp_zero]

/-- (a) The row sum is at least `1`: the maximising column contributes `1` and every term is positive. -/
theorem one_le_rowSum (r : ρ) : 1 ≤ rowSum s r := by
  obtain ⟨k0, hk0⟩ := exists_eq_rowMax s r
  calc (1 : ℝ) = expShift s r k0 := (expShift_eq_one s hk0).symm
    _ ≤ ∑ k, expShift s r k :=
      Finset.single_le_sum (f := fun k => expShift s r k) (fun k _ => (expShift_pos s r k).le) (Finset.mem_univ k0)

/-- Hence the row sum is positive … -/
theorem rowSum_pos (r : ρ) : 0 < rowSum s r := lt_of_lt_of_le one_pos (one_le_rowSum s r)

/-- … and not zero. -/
theorem rowSum_ne_zero (r : ρ) : rowSum s r ≠ 0 := (rowSum_pos s r).ne'

/-- A softmax entry is positive, so its absolute value is itself. -/
theorem abs_softmax (r : ρ) (k : κ) : |expShift s r k / rowSum s r| = expShift s r k / rowSum s r :=
  abs_of_pos (div_pos (expShift_pos s r k) (rowSum_pos s r))

/-- A softmax entry is at most `1 / l r`. -/
theorem softmax_le (r : ρ) (k : κ) : expShift s r k / rowSum s r ≤ 1 / rowSum s r := by
  rw [div_eq_mul_inv, div_eq_mul_inv]
  exact mul_le_mul_of_nonneg_right (expShift_le_one s r k) (inv_nonneg.2 (rowSum_pos s r).le)

/-- (b) In each row the largest absolute value of a softmax entry is `1 / l r`, attained at the maximising column. -/
theorem sup'_abs_softmax_row (r : ρ) :
    Finset.univ.sup' Finset.univ_nonempty (fun k => |expShift s r k / rowSum s r|) = 1 / rowSum s r := by
  apply le_antisymm
  · refine Finset.sup'_le _ _ fun k _ => ?_
    rw [abs_softmax]; exact softmax_le s r k
  · obtain ⟨k0, hk0⟩ := exists_eq_rowMax s r
    have h : |expShift s r k0 / rowSum s r| = 1 / rowSum s r := by rw [abs_softmax, expShift_eq_one s hk0]
    rw [← h]
    exact Finset.le_sup' (fun k => |expShift s r k / rowSum s r|) (Finset.mem_univ k0)

/-- (c) Over all rows and columns the largest absolute value of a softmax entry is `1` over the smallest row sum. -/
theorem sup'_abs_softmax :
    Finset.univ.sup' Finset.univ_nonempty (fun rk : ρ × κ => |expShift s rk.1 rk.2 / rowSum s rk.1|)
      = 1 / Finset.univ.inf' Finset.univ_nonempty (rowSum s) := by
  obtain ⟨r0, _, hr0⟩ := Finset.exists_mem_eq_inf' Finset.univ_nonempty (rowSum s)
  have hmin : ∀ r, rowSum s r0 ≤ rowSum s r := fun r => hr0 ▸ Finset.inf'_le (rowSum s) (Finset.mem_univ r)
  rw [hr0]
  apply le_antisymm
  · refine Finset.sup'_le _ _ fun rk _ => ?_
    rw [abs_softmax]
    exact (softmax_le s rk.1 rk.2).trans (one_div_le_one_div_of_le (rowSum_pos s r0) (hmin rk.1))
  · obtain ⟨k0, hk0⟩ := exists_eq_rowMax s r0
    have h : |expShift s r0 k0 / rowSum s r0| = 1 / rowSum s r0 := by rw [abs_softmax, expShift_eq_one s hk0]
    rw [← h]
    exact Finset.le_sup' (fun rk : ρ × κ => |expShift s rk.1 rk.2 / rowSum s rk.1|) (Finset.mem_univ (r0, k0))

/-- The smallest row sum is itself at least `1`, hence not zero. -/
theorem one_le_inf'_rowSum : 1 ≤ Finset.univ.inf' Finset.univ_nonempty (rowSum s) :=
  (Finset.le_inf'_iff _ _).2 fun r _ => one_le_rowSum s r

end Real

/-! ## Finite suprema and sums of reals inside the extended reals -/

section Coe
variable {ι : Type} [Fintype ι]

/-- The supremum in the extended reals of finitely many reals (at least one) is their maximum. -/
theorem iSup_coe_eq_coe_sup' [Nonempty ι] (f : ι → ℝ) :
    ⨆ i, ((f i : ℝ) : EReal) = ((Finset.univ.sup' Finset.univ_nonempty f : ℝ) : EReal) := by
  apply le_antisymm
  · exact iSup_le fun i => EReal.coe_le_coe_iff.2 (Finset.le_sup' f (Finset.mem_univ i))
  · obtain ⟨i0, _, hi0⟩ := Finset.exists_mem_eq_sup' Finset.univ_nonempty f
    rw [hi0]
    exact le_iSup (fun i => ((f i : ℝ) : EReal)) i0

/-- The infimum in the extended reals of finitely many reals (at least one) is their minimum. -/
theorem iInf_coe_eq_coe_inf' [Nonempty ι] (f : ι → ℝ) :
    ⨅ i, ((f i : ℝ) : EReal) = ((Finset.univ.inf' Finset.univ_nonempty f : ℝ) : EReal) := by
  apply le_antisymm
  · obtain ⟨i0, _, hi0⟩ := Finset.exists_mem_eq_inf' Finset.univ_nonempty f
    rw [hi0]
    exact iInf_le (fun i => ((f i : ℝ) : EReal)) i0
  · exact le_iInf fun i => EReal.coe_le_coe_iff.2 (Finset.inf'_le f (Finset.mem_univ i))

/-- A finite sum of reals, taken in the extended reals, is the real sum. -/
theorem sum_coe (f : ι → ℝ) : ∑ i, ((f i : ℝ) : EReal) = ((∑ i, f i : ℝ) : EReal) := by
  classical
  induction (Finset.univ : Finset ι) using Finset.induction_on with
  | empty => simp
  | insert a S ha ih => rw [Finset.sum_insert ha, Finset.sum_insert ha, ih, EReal.coe_add]

/-- On a real, the ideal reading's absolute value `max x (-x)` is the real absolute value. -/
theorem max_neg_coe (q : ℝ) : max (q : EReal) (-(q : EReal)) = ((|q| : ℝ) : EReal) := by
  rw [← EReal.coe_neg, abs_eq_max_neg]
  exact (EReal.coe_strictMono.monotone.map_max).symm

end Coe

/-! ## Over the extended reals, with the ideal reading's operations -/

section Ideal
variable {ρ κ : Type} [Fintype ρ] [Fintype κ] [Nonempty ρ] [Nonempty κ]

/-- (d) The peak of a softmax in the exact reading. The scores `S r k` are finite (each is the real `s r k`);
    `M r` is the row's supremum, `E r k = exp (S r k - M r)` the shifted exponential, `L r = ∑ k, E r k` the row's sum,
    all extended reals. Then the supremum over every row and column of the absolute value `max x (-x)` of the
    quotient `E r k / L r` is `1` divided by the infimum of the row sums — division being the exact reading's
    `Ideal.div`, whose corner at a zero divisor is never met because every row sum is at least `1`. -/
theorem iSup_abs_softmax_eq_one_div_iInf (s : ρ → κ → ℝ)
    (S : ρ → κ → EReal) (hS : ∀ r k, S r k = ((s r k : ℝ) : EReal))
    (M : ρ → EReal) (hM : ∀ r, M r = ⨆ k, S r k)
    (E : ρ → κ → EReal) (hE : ∀ r k, E r k = Ideal.exp (S r k - M r))
    (L : ρ → EReal) (hL : ∀ r, L r = ∑ k, E r k) :
    (⨆ r, ⨆ k, max (Ideal.div (E r k) (L r)) (-(Ideal.div (E r k) (L r)))) = Ideal.div 1 (⨅ r, L r) := by
  have hM' : ∀ r, M r = ((rowMax s r : ℝ) : EReal) := fun r => by
    rw [hM]; simp only [hS]; exact iSup_coe_eq_coe_sup' (s r)
  have hE' : ∀ r k, E r k = ((expShift s r k : ℝ) : EReal) := fun r k => by
    rw [hE, hS, hM', ← EReal.coe_sub]; rfl
  have hL' : ∀ r, L r = ((rowSum s r : ℝ) : EReal) := fun r => by
    rw [hL]; simp only [hE']; exact sum_coe _
  have hq : ∀ r k, max (Ideal.div (E r k) (L r)) (-(Ideal.div (E r k) (L r)))
      = ((|expShift s r k / rowSum s r| : ℝ) : EReal) := fun r k => by
    rw [hE', hL', Ideal.div_coe (rowSum_ne_zero s r), ← EReal.coe_mul, max_neg_coe, mul_one_div]
  have hinf : (⨅ r, L r) = ((Finset.univ.inf' Finset.univ_nonempty (rowSum s) : ℝ) : EReal) := by
    simp only [hL']; exact iInf_coe_eq_coe_inf' (rowSum s)
  have hne : Finset.univ.inf' Finset.univ_nonempty (rowSum s) ≠ 0 :=
    (lt_of_lt_of_le one_pos (one_le_inf'_rowSum s)).ne'
  simp only [hq]
  rw [hinf, Ideal.div_coe hne, one_mul, ← sup'_abs_softmax s, ← iSup_coe_eq_coe_sup', iSup_prod]

/-- The same, for scores known only to be finite extended reals (neither `-∞` nor `+∞`). -/
theorem iSup_abs_softmax_eq_one_div_iInf_of_finite
    (S : ρ → κ → EReal) (hS : ∀ r k, S r k ≠ ⊥ ∧ S r k ≠ ⊤)
    (M : ρ → EReal) (hM : ∀ r, M r = ⨆ k, S r k)
    (E : ρ → κ → EReal) (hE : ∀ r k, E r k = Ideal.exp (S r k - M r))
    (L : ρ → EReal) (hL : ∀ r, L r = ∑ k, E r k) :
    (⨆ r, ⨆ k, max (Ideal.div (E r k) (L r)) (-(Ideal.div (E r k) (L r)))) = Ideal.div 1 (⨅ r, L r) :=
  iSup_abs_softmax_eq_one_div_iInf (fun r k => (S r k).toReal) S
    (fun r k => (EReal.coe_toReal (hS r k).2 (hS r k).1).symm) M hM E hE L hL

end Ideal

end Idealize.ShloMosaic.SoftmaxPeak
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.OnlineSoftmax.lean ====
/-
  The running maximum and the rescaled running sum of a softmax taken tile by tile.

  A row of scores is cut into consecutive tiles of n entries. Going through the tiles in order one keeps a
  running maximum m and a running sum l of exponentials shifted by the current maximum: at a new tile with
  maximum t the new maximum is m' = max m t, and the new sum is exp (m - m') * l + ∑ j, exp (g j - m'),
  the factor exp (m - m') re-basing the terms collected so far from the old shift m to the new shift m'
  (exp (a - m) * exp (m - m') = exp (a - m')). The first tile starts from m = -∞ and l = 0, where the
  factor is exp (-∞) = 0.

  Section Step states one such step in the extended reals, with the exact (ideal) reading's exponential
  (exp (-∞) = 0) and for finite scores: the results are the real maximum and the real sum. Section Recurrence
  shows over the reals that after the last tile the running maximum is the maximum of the whole row and the
  running sum is the sum of the exponentials of the whole row shifted by that maximum.
-/
import Mathlib.Analysis.SpecialFunctions.Exp
import Mathlib.Data.EReal.Basic
import Mathlib.Data.EReal.Operations
import Mathlib.Algebra.BigOperators.Fin
import Mathlib.Algebra.BigOperators.Intervals
import Idealize.ShloMosaic.PureOps.Ideal
import proofs.«166531_j1056561955228_2_alg».proof.Proof.LibSoftmaxPeak
import proofs.«166531_j1056561955228_2_alg».proof.Proof.LibBlockSum

namespace Cert.OnlineSoftmax

open Idealize.ShloMosaic
open Idealize.ShloMosaic.SoftmaxPeak (iSup_coe_eq_coe_sup' sum_coe)
open scoped BigOperators

/-! ## One step, in the extended reals -/

section Step
variable {n : ℕ} [NeZero n] (g : Fin n → ℝ)

/-- The difference of two reals, taken in the extended reals, and then the exact exponential: the real exponential
    of the real difference. -/
theorem exp_coe_sub_coe (a m : ℝ) :
    Ideal.exp (((a : ℝ) : EReal) - ((m : ℝ) : EReal)) = ((Real.exp (a - m) : ℝ) : EReal) := by
  rw [← EReal.coe_sub]; rfl

/-- The sum over a tile of the exact exponentials of the scores shifted by a real m is the real sum. -/
theorem sum_exp_shift (m : ℝ) :
    ∑ j, Ideal.exp (((g j : ℝ) : EReal) - ((m : ℝ) : EReal)) = ((∑ j, Real.exp (g j - m) : ℝ) : EReal) := by
  simp only [exp_coe_sub_coe]
  exact sum_coe fun j => Real.exp (g j - m)

/-- First tile, maximum: starting from -∞ the new maximum is the tile's maximum. -/
theorem first_max :
    max (⊥ : EReal) (⨆ j, ((g j : ℝ) : EReal)) = ((Finset.univ.sup' Finset.univ_nonempty g : ℝ) : EReal) := by
  rw [max_eq_right bot_le, iSup_coe_eq_coe_sup']

/-- First tile, sum: the re-basing factor is exp (-∞) = 0, the sum so far is 0, and what is left is the
    tile's own sum of shifted exponentials. -/
theorem first_sum :
    Ideal.exp ((⊥ : EReal) - ((Finset.univ.sup' Finset.univ_nonempty g : ℝ) : EReal)) * (0 : EReal)
        + ((0 : EReal) + ∑ j, Ideal.exp (((g j : ℝ) : EReal) - ((Finset.univ.sup' Finset.univ_nonempty g : ℝ) : EReal)))
      = ((∑ j, Real.exp (g j - Finset.univ.sup' Finset.univ_nonempty g) : ℝ) : EReal) := by
  rw [mul_zero, zero_add, zero_add, sum_exp_shift]

/-- A later tile, maximum: the larger of the running maximum and the tile's maximum. -/
theorem next_max' (μ : ℝ) :
    max ((μ : ℝ) : EReal) (⨆ j, ((g j : ℝ) : EReal))
      = ((max μ (Finset.univ.sup' Finset.univ_nonempty g) : ℝ) : EReal) := by
  rw [iSup_coe_eq_coe_sup']
  exact (EReal.coe_strictMono.monotone.map_max).symm

/-- The same with the tile's maximum itself first compared with -∞. -/
theorem next_max (μ : ℝ) :
    max ((μ : ℝ) : EReal) (max (⊥ : EReal) (⨆ j, ((g j : ℝ) : EReal)))
      = ((max μ (Finset.univ.sup' Finset.univ_nonempty g) : ℝ) : EReal) := by
  rw [max_eq_right (bot_le : (⊥ : EReal) ≤ ⨆ j, ((g j : ℝ) : EReal)), next_max']

/-- A later tile, sum: the sum so far re-based from the old maximum μ to the new one μ', plus the tile's own
    sum of exponentials shifted by μ'. -/
theorem next_sum (μ μ' lam : ℝ) :
    Ideal.exp (((μ : ℝ) : EReal) - ((μ' : ℝ) : EReal)) * ((lam : ℝ) : EReal)
        + ((0 : EReal) + ∑ j, Ideal.exp (((g j : ℝ) : EReal) - ((μ' : ℝ) : EReal)))
      = ((Real.exp (μ - μ') * lam + ∑ j, Real.exp (g j - μ') : ℝ) : EReal) := by
  rw [exp_coe_sub_coe, zero_add, sum_exp_shift, ← EReal.coe_mul, ← EReal.coe_add]

end Step

/-! ## The recurrence over the tiles, over the reals -/

section Recurrence
variable {n : ℕ} [NeZero n]

/-- The running maximum after tile k: the first tile's maximum, then the larger of the running maximum and the
    next tile's maximum. -/
noncomputable def runMax (g : ℕ → Fin n → ℝ) : ℕ → ℝ
  | 0 => Finset.univ.sup' Finset.univ_nonempty (g 0)
  | k + 1 => max (runMax g k) (Finset.univ.sup' Finset.univ_nonempty (g (k + 1)))

/-- The running sum after tile k: the first tile's exponentials shifted by its maximum, then the sum so far re-based
    to the new running maximum plus the next tile's exponentials shifted by the new running maximum. -/
noncomputable def runSum (g : ℕ → Fin n → ℝ) : ℕ → ℝ
  | 0 => ∑ j, Real.exp (g 0 j - runMax g 0)
  | k + 1 => Real.exp (runMax g k - runMax g (k + 1)) * runSum g k
      + ∑ j, Real.exp (g (k + 1) j - runMax g (k + 1))

variable (g : ℕ → Fin n → ℝ)

theorem runMax_zero : runMax g 0 = Finset.univ.sup' Finset.univ_nonempty (g 0) := rfl

theorem runMax_succ (k : ℕ) :
    runMax g (k + 1) = max (runMax g k) (Finset.univ.sup' Finset.univ_nonempty (g (k + 1))) := rfl

theorem runSum_zero : runSum g 0 = ∑ j, Real.exp (g 0 j - runMax g 0) := rfl

theorem runSum_succ (k : ℕ) :
    runSum g (k + 1) = Real.exp (runMax g k - runMax g (k + 1)) * runSum g k
      + ∑ j, Real.exp (g (k + 1) j - runMax g (k + 1)) := rfl

/-- The running maximum never decreases from one tile to the next. -/
theorem runMax_le_succ (k : ℕ) : runMax g k ≤ runMax g (k + 1) := le_max_left _ _

/-- Every score of every tile seen so far is at most the running maximum. -/
theorem le_runMax : ∀ (k i : ℕ), i ≤ k → ∀ j : Fin n, g i j ≤ runMax g k
  | 0, i, hi, j => by
    obtain rfl : i = 0 := Nat.le_zero.1 hi
    exact Finset.le_sup' (g 0) (Finset.mem_univ j)
  | k + 1, i, hi, j => by
    rcases Nat.lt_or_ge i (k + 1) with h | h
    · exact (le_runMax k i (Nat.lt_succ_iff.1 h) j).trans (runMax_le_succ g k)
    · obtain rfl : i = k + 1 := le_antisymm hi h
      exact (Finset.le_sup' (g (k + 1)) (Finset.mem_univ j)).trans (le_max_right _ _)

/-- The running maximum is one of the scores seen so far. -/
theorem exists_eq_runMax : ∀ k : ℕ, ∃ i, i ≤ k ∧ ∃ j : Fin n, g i j = runMax g k
  | 0 => by
    obtain ⟨j, _, hj⟩ := Finset.exists_mem_eq_sup' Finset.univ_nonempty (g 0)
    exact ⟨0, le_rfl, j, hj.symm⟩
  | k + 1 => by
    rcases le_total (runMax g k) (Finset.univ.sup' Finset.univ_nonempty (g (k + 1))) with h | h
    · obtain ⟨j, _, hj⟩ := Finset.exists_mem_eq_sup' Finset.univ_nonempty (g (k + 1))
      exact ⟨k + 1, le_rfl, j, by rw [runMax_succ, max_eq_right h, hj]⟩
    · obtain ⟨i, hi, j, hj⟩ := exists_eq_runMax k
      exact ⟨i, Nat.le_succ_of_le hi, j, by rw [runMax_succ, max_eq_left h, hj]⟩

/-- Re-basing one exponential from the shift m to the shift m'. -/
theorem exp_rebase (a m m' : ℝ) : Real.exp (m - m') * Real.exp (a - m) = Real.exp (a - m') := by
  rw [← Real.exp_add]; congr 1; ring

/-- The running sum after tile k is the sum, over the tiles seen so far, of the exponentials shifted by the current
    running maximum. -/
theorem runSum_eq : ∀ k : ℕ,
    runSum g k = ∑ i ∈ Finset.range (k + 1), ∑ j, Real.exp (g i j - runMax g k)
  | 0 => by rw [runSum_zero, Finset.sum_range_one]
  | k + 1 => by
    rw [runSum_succ, runSum_eq k, Finset.sum_range_succ _ (k + 1), Finset.mul_sum]
    congr 1
    refine Finset.sum_congr rfl fun i _ => ?_
    rw [Finset.mul_sum]
    exact Finset.sum_congr rfl fun j _ => exp_rebase _ _ _

/-- Position j of tile k is below nb * n when k is below nb. -/
theorem tile_lt {nb k : ℕ} (hk : k < nb) (j : Fin n) : k * n + j.val < nb * n :=
  BlockSum.pos_lt (⟨k, hk⟩ : Fin nb) j

variable {nb : ℕ} [Nonempty (Fin (nb * n))] (f : Fin (nb * n) → ℝ)

/-- When the tiles cut a row f of nb * n scores, the running maximum after the last tile is the row's maximum. -/
theorem runMax_last (hnb : 0 < nb)
    (hg : ∀ (k : ℕ) (hk : k < nb) (j : Fin n), g k j = f ⟨k * n + j.val, tile_lt hk j⟩) :
    runMax g (nb - 1) = Finset.univ.sup' Finset.univ_nonempty f := by
  have hn : 0 < n := Nat.pos_of_ne_zero (NeZero.ne n)
  apply le_antisymm
  · obtain ⟨i, hi, j, hj⟩ := exists_eq_runMax g (nb - 1)
    have hi' : i < nb := lt_of_le_of_lt hi (Nat.sub_lt hnb Nat.one_pos)
    rw [← hj, hg i hi' j]
    exact Finset.le_sup' f (Finset.mem_univ _)
  · refine Finset.sup'_le _ _ fun s _ => ?_
    have hq : s.val / n < nb := Nat.div_lt_of_lt_mul (lt_of_lt_of_eq s.isLt (Nat.mul_comm nb n))
    have hs : f s = g (s.val / n) ⟨s.val % n, Nat.mod_lt _ hn⟩ := by
      rw [hg _ hq]
      exact congrArg f (Fin.ext (Nat.div_add_mod' s.val n).symm)
    rw [hs]
    exact le_runMax g (nb - 1) _ (Nat.le_sub_one_of_lt hq) _

/-- … and the running sum after the last tile is the sum of the row's exponentials shifted by the row's maximum. -/
theorem runSum_last (hnb : 0 < nb)
    (hg : ∀ (k : ℕ) (hk : k < nb) (j : Fin n), g k j = f ⟨k * n + j.val, tile_lt hk j⟩) :
    runSum g (nb - 1) = ∑ s, Real.exp (f s - Finset.univ.sup' Finset.univ_nonempty f) := by
  rw [runSum_eq, runMax_last g f hnb hg, Nat.sub_add_cancel hnb, Finset.sum_range,
    BlockSum.sum_fin_blocks nb n fun s => Real.exp (f s - Finset.univ.sup' Finset.univ_nonempty f)]
  refine Finset.sum_congr rfl fun b _ => Finset.sum_congr rfl fun j _ => ?_
  rw [hg b.val b.isLt j]

end Recurrence

end Cert.OnlineSoftmax
-- ==== Proof.KernelStep.lean ====
/-
  One step of the kernel's carried pair, over real scores.

  When every inner product of the query block with the key block is a real number g b q j, and the carried pair of row
  (b, q) holds reals (μ, λ), the pair the body leaves is (max μ (max_j g b q j), exp (μ - μ') · λ + ∑_j exp (g b q j - μ'))
  with μ' the new maximum; starting from (-∞, 0) it is (max_j g b q j, ∑_j exp (g b q j - max_j g b q j)).  The emitted
  value for a pair (M, L) with L positive is M + log L.
-/
import proofs.«166531_j1056561955228_2_alg».proof.Proof.KernelPay
import proofs.«166531_j1056561955228_2_alg».proof.Proof.OnlineSoftmax

noncomputable section

namespace Cert.KernelIdeal.Step

open Cert.KernelIdeal Cert.KernelIdeal.Gen Cert.KernelIdeal.Pay Cert.OnlineSoftmax
open Idealize.ShloMosaic Idealize.ShloMosaic.ValueIdx

/-- The f32 pattern 0x3F800000 denotes the real number 1. -/
theorem ofBits_one : Ideal.ofBits .f32 0x3F800000#32 = 1 := by
  simp [Ideal.ofBits, Ideal.ieee, -EReal.coe_mul]; norm_num

section
variable (x0 : Vec Ideal S4x1024x256 .f32) (x1 : Vec Ideal S4x1024x256 .bf16) (gt : Fin 4 → Fin 1024 → Fin 1024 → ℝ)
variable (hg : ∀ b q j, ∑ d : Fin 256, x0 (ix3 b q d) * x1 (ix3 b j d) = ((gt b q j : ℝ) : EReal))
include hg

/-- The score block holds the real scores. -/
theorem score_real (b : Fin 4) (q j : Fin 1024) : k0_pay5 (F := Ideal) x0 x1 (ix3 b q j) = ((gt b q j : ℝ) : EReal) := by
  rw [pay5_apply, hg, ofBits_one, mul_one]

/-- From -∞ the new maximum is the block's row maximum. -/
theorem max_first_real (b : Fin 4) (q : Fin 1024) (u : Fin 1) :
    k0_pay6 (F := Ideal) x0 x1 (k0_pay3 (F := Ideal)) (ix3 b q u)
      = ((Finset.univ.sup' Finset.univ_nonempty (gt b q) : ℝ) : EReal) := by
  rw [pay6_apply, pay3_apply]
  simp only [score_real x0 x1 gt hg]
  exact first_max (gt b q)

/-- From (-∞, 0) the new sum is the block's row sum of exponentials shifted by the row maximum. -/
theorem sum_first_real (b : Fin 4) (q : Fin 1024) (u : Fin 1) :
    k0_pay7 (F := Ideal) x0 x1 (k0_pay3 (F := Ideal)) (k0_pay3 (F := Ideal)) (k0_pay4 (F := Ideal)) (ix3 b q u)
      = ((∑ j, Real.exp (gt b q j - Finset.univ.sup' Finset.univ_nonempty (gt b q)) : ℝ) : EReal) := by
  obtain rfl : u = 0 := Subsingleton.elim _ _
  rw [pay7_apply, pay3_apply, pay4_apply, max_first_real x0 x1 gt hg b q 0]
  simp only [score_real x0 x1 gt hg]
  have h := first_sum (gt b q)
  rw [zero_add] at h
  exact h

variable (xs0 xs1 : Vec Ideal S4x1024x1 .f32) (μ lam : Fin 4 → Fin 1024 → ℝ)
variable (h0 : ∀ b q, xs0 (ix3 b q (0 : Fin 1)) = ((μ b q : ℝ) : EReal))
variable (h1 : ∀ b q, xs1 (ix3 b q (0 : Fin 1)) = ((lam b q : ℝ) : EReal))

include h0 in
/-- From a real maximum μ the new maximum is max μ (the block's row maximum). -/
theorem max_next_real (b : Fin 4) (q : Fin 1024) (u : Fin 1) :
    k0_pay6 (F := Ideal) x0 x1 xs0 (ix3 b q u)
      = ((max (μ b q) (Finset.univ.sup' Finset.univ_nonempty (gt b q)) : ℝ) : EReal) := by
  obtain rfl : u = 0 := Subsingleton.elim _ _
  rw [pay6_apply, h0]
  simp only [score_real x0 x1 gt hg]
  exact next_max' (gt b q) (μ b q)

include h0 h1 in
/-- From a real pair (μ, λ) the new sum is the old one re-based plus the block's shifted exponentials. -/
theorem sum_next_real (b : Fin 4) (q : Fin 1024) (u : Fin 1) :
    k0_pay7 (F := Ideal) x0 x1 xs0 xs0 xs1 (ix3 b q u)
      = ((Real.exp (μ b q - max (μ b q) (Finset.univ.sup' Finset.univ_nonempty (gt b q))) * lam b q
          + ∑ j, Real.exp (gt b q j - max (μ b q) (Finset.univ.sup' Finset.univ_nonempty (gt b q))) : ℝ) : EReal) := by
  obtain rfl : u = 0 := Subsingleton.elim _ _
  rw [pay7_apply, h0, h1, max_next_real x0 x1 gt hg xs0 μ h0 b q 0]
  simp only [score_real x0 x1 gt hg]
  have h := next_sum (gt b q) (μ b q) (max (μ b q) (Finset.univ.sup' Finset.univ_nonempty (gt b q))) (lam b q)
  rw [zero_add] at h
  exact h

end

/-- The emitted value of a real pair (M, L) with L positive is the real M + log L. -/
theorem out_real (v34 v35 : Vec Ideal S4x1024x1 .f32) (M L : Fin 4 → Fin 1024 → ℝ)
    (hM : ∀ b q, v34 (ix3 b q (0 : Fin 1)) = ((M b q : ℝ) : EReal))
    (hL : ∀ b q, v35 (ix3 b q (0 : Fin 1)) = ((L b q : ℝ) : EReal)) (hpos : ∀ b q, 0 < L b q) (b : Fin 4) (q : Fin 1024) :
    k0_pay2 (F := Ideal) v34 v35 (ix2 b q) = ((M b q + Real.log (L b q) : ℝ) : EReal) := by
  rw [pay2_apply, hM, hL, Ideal.log_coe, if_neg (not_le.2 (hpos b q)), ← EReal.coe_add]

end Cert.KernelIdeal.Step

end
-- ==== Proof.KernelBlocks.lean ====
/-
  Which rows of the arrays a grid point's blocks are.

  The 16 grid points run over 4 query tiles (the slow coordinate, point / 4) and, inside each, over 4 key tiles (the fast
  coordinate, point % 4).  The query block of a point is rows (point / 4) · 1024 … of the second argument, all batches
  and all features; the key block is rows (point % 4) · 1024 … of the first argument, which the host has cast to bf16
  before the region (at the exact reading that cast changes nothing); the output block is columns (point / 4) · 1024 …
  of the [4, 4096] result.
-/
import proofs.«166531_j1056561955228_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Facts₀

variable {F : FTy → Type} [FloatOps F]
variable (m : (ℓ : Loc nD τ sig) → Buf (Elt F) ℓ)

/-- The printed index maps at every grid point: the query and output windows follow point / 4, the key window
    point % 4, every other block coordinate is 0. -/
theorem idx_facts : ∀ t : Fin cfg0.N,
    win0_0.index t (0 : Fin 3) = 0 ∧ win0_0.index t (1 : Fin 3) = t.val / 4 ∧ win0_0.index t (2 : Fin 3) = 0
    ∧ win0_1.index t (0 : Fin 3) = 0 ∧ win0_1.index t (1 : Fin 3) = t.val % 4 ∧ win0_1.index t (2 : Fin 3) = 0
    ∧ win0_2.index t (0 : Fin 2) = 0 ∧ win0_2.index t (1 : Fin 2) = t.val / 4 :=
  (by decide +kernel : ∀ t : Fin grid0.N, _)

/-- Row q of tile k (k taken modulo 4, so that the row is defined for every natural k) of a 4096-row array. -/
def rowT (k : ℕ) (q : Fin 1024) : Fin 4096 := ⟨k % 4 * 1024 + q.val, by have := q.isLt; have := Nat.mod_lt k (show 0 < 4 by decide); omega⟩

theorem rowT_val (k : ℕ) (q : Fin 1024) : (rowT k q).val = k % 4 * 1024 + q.val := rfl

theorem point_lt (t : Fin cfg0.N) : t.val < 16 := lt_of_lt_of_eq t.isLt (show cfg0.N = 16 from N_0)

/-- The query block at a point, entry (b, q, d): row q of tile point / 4 of the second argument. -/
theorem iblk0_apply (c : Dev nD) (t : Fin cfg0.N) (b : Fin 4) (q : Fin 1024) (d : Fin 256) :
    (iblk m c 0 t : Vec F S4x1024x256 .f32) (ix3 b q d) = V m c main_arg1 (ix3 b (rowT (t.val / 4) q) d) := by
  obtain ⟨e0, e1, e2, -⟩ := idx_facts t
  have ht := point_lt t
  show V m c main_arg1 (((cfg0.win 0).blk t).view.emb (ix3 b q d)) = _
  refine congrArg _ (funext fun a => Fin.ext ?_)
  match a with
  | ⟨0, _⟩ => show win0_0.index t (0 : Fin 3) * 4 + 1 * b.val = b.val; omega
  | ⟨1, _⟩ => show win0_0.index t (1 : Fin 3) * 1024 + 1 * q.val = t.val / 4 % 4 * 1024 + q.val; omega
  | ⟨2, _⟩ => show win0_0.index t (2 : Fin 3) * 256 + 1 * d.val = d.val; omega

/-- The key block at a point, entry (b, j, d): row j of tile point % 4 of the bf16 copy of the first argument. -/
theorem iblk1_apply (c : Dev nD) (t : Fin cfg0.N) (b : Fin 4) (j : Fin 1024) (d : Fin 256) :
    (iblk m c 1 t : Vec F S4x1024x256 .bf16) (ix3 b j d) = V m c main_v0 (ix3 b (rowT (t.val % 4) j) d) := by
  obtain ⟨-, -, -, e0, e1, e2, -⟩ := idx_facts t
  show V m c main_v0 (((cfg0.win 1).blk t).view.emb (ix3 b j d)) = _
  refine congrArg _ (funext fun a => Fin.ext ?_)
  match a with
  | ⟨0, _⟩ => show win0_1.index t (0 : Fin 3) * 4 + 1 * b.val = b.val; omega
  | ⟨1, _⟩ => show win0_1.index t (1 : Fin 3) * 1024 + 1 * j.val = t.val % 4 % 4 * 1024 + j.val; omega
  | ⟨2, _⟩ => show win0_1.index t (2 : Fin 3) * 256 + 1 * d.val = d.val; omega

/-- The bf16 copy the region finds is the host's cast of the first argument. -/
theorem V_main_v0 (c : Dev nD) :
    (V m c main_v0 : S4x4096x256.Idx → Elt F .bf16) = truncf .bf16 (m ((c : Thread nD τ).loc main_arg0)) Facts₀.bitsLt_bf16_f32 := by
  show StableHlo.after hostOps0 (fun b => m (c, b)) (Proc.devRef .tc main_v0) = _
  after_results

end Cert.KernelIdeal.Blocks

end
-- ==== Proof.Spec.lean ====
/-
  The quantity both programs compute, over the reals.

  For batch b and column t the scores of column t are the inner products x s = ⟨z1[b, s, ·], z2[b, t, ·]⟩, one for every
  row s of z1.  With M the largest score of the column and L the sum over s of exp (x s - M), the log-probability of the
  diagonal entry is (x t - M) - log L.  The loss is minus the mean over the 4 · 4096 pairs (b, t) of these terms.
-/
import Idealize.ShloMosaic.PureOps.Ideal
import Idealize.ShloMosaic.PureOps.Ideal.Laws
import Idealize.ShloMosaic.Lib.ValueIdx
import proofs.«166531_j1056561955228_2_alg».proof.Proof.LibSoftmaxPeak

noncomputable section

namespace Cert.Spec

open Idealize.ShloMosaic Idealize.ShloMosaic.ValueIdx Idealize.ShloMosaic.SoftmaxPeak

/-- The shape of both arguments, of the per-pair terms, and of the scalar result. -/
abbrev SArg : Shape := ⟨3, ![4, 4096, 256]⟩
abbrev SOut : Shape := ⟨2, ![4, 4096]⟩
abbrev S0 : Shape := ⟨0, ![]⟩

/-- The score of row `s` of `a1` against row `r.2` of `a2`, in batch `r.1`: their inner product over the 256 features. -/
def score (a1 a2 : SArg.Idx → ℝ) (r : Fin 4 × Fin 4096) (s : Fin 4096) : ℝ :=
  ∑ k : Fin 256, a1 (ix3 r.1 s k) * a2 (ix3 r.1 r.2 k)

/-- The diagonal log-probability of the pair `r = (b, t)`: the score of row `t` minus the column's largest score, minus
    the logarithm of the column's sum of shifted exponentials. -/
def term (a1 a2 : SArg.Idx → ℝ) (r : Fin 4 × Fin 4096) : ℝ :=
  (score a1 a2 r r.2 - rowMax (score a1 a2) r) - Real.log (rowSum (score a1 a2) r)

/-- The terms as an array of extended reals indexed by (b, t). -/
def termArr (a1 a2 : SArg.Idx → ℝ) : FVec Ideal SOut .f32 := fun j => ((term a1 a2 (j 0, j 1) : ℝ) : EReal)

/-- What both programs do last with the array of terms: sum all of them from zero, divide by 16384, negate. -/
def lossTail (h : SOut.ReducesTo [0, 1] S0) (hu : 0 < S0.numel) (d : FVec Ideal SOut .f32) : FVec Ideal S0 .f32 :=
  Host.negf (Host.divf (Host.reduceAdd d (constant (F := Ideal) S0 .f32 0x00000000#32) h hu)
    (constant (F := Ideal) S0 .f32 0x46800000#32))

/-- An array of finite extended reals is the array of its real parts. -/
theorem eq_coe_toReal {s : Shape} (z : s.Idx → EReal) (hz : ∀ i, z i ≠ ⊥ ∧ z i ≠ ⊤) :
    z = fun i => (((z i).toReal : ℝ) : EReal) :=
  funext fun i => (EReal.coe_toReal (hz i).2 (hz i).1).symm

end Cert.Spec

end
-- ==== Proof.KernelInv.lean ====
/-
  What the carried pair holds after every grid point, and what the last key block of a query tile emits.

  Fix batch b and row q of the query tile of a point; the row of the second argument it stands for is
  t' = (point / 4) · 1024 + q, and its scores against the rows of the first argument are cut into four tiles of 1024,
  one per key block.  After the point with key block k the carried maximum is the running maximum over tiles 0 … k and
  the carried sum the running sum, both real numbers: at k = 0 the body starts them from (-∞, 0), afterwards it updates
  what the point before left.  So after k = 3 they are the maximum and the shifted-exponential sum of the whole column of
  scores, and the emitted value is their log-sum-exp.
-/
import proofs.«166531_j1056561955228_2_alg».proof.Proof.KernelFound
import proofs.«166531_j1056561955228_2_alg».proof.Proof.KernelStep
import proofs.«166531_j1056561955228_2_alg».proof.Proof.KernelBlocks
import proofs.«166531_j1056561955228_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Blocks Cert.KernelIdeal.Found Cert.KernelIdeal.Step
open Cert.KernelIdeal.Pay Cert.OnlineSoftmax Cert.Spec Idealize.ShloMosaic.SoftmaxPeak

variable (m : (ℓ : Loc nD τ sig) → Buf (Elt Ideal) ℓ) (c : Dev nD)

/-- The query block and the key block of a grid point, at their literal types. -/
abbrev X0 (t : Fin cfg0.N) : Vec Ideal S4x1024x256 .f32 := iblk m c 0 t
abbrev X1 (t : Fin cfg0.N) : Vec Ideal S4x1024x256 .bf16 := iblk m c 1 t

/-! ## The pieces the run found, at a grid point -/

/-- At the first key block of a query tile the pair left is the update of (-∞, 0). -/
theorem scratch_first (t : Fin cfg0.N) (h0 : t.val % 4 = 0) (h3 : ¬t.val % 4 = 3) :
    (outsAt0 m c t.val t.isLt).2.1 = k0_pay6 (F := Ideal) (X0 m c t) (X1 m c t) (k0_pay3 (F := Ideal))
    ∧ (outsAt0 m c t.val t.isLt).2.2
        = k0_pay7 (F := Ideal) (X0 m c t) (X1 m c t) (k0_pay3 (F := Ideal)) (k0_pay3 (F := Ideal)) (k0_pay4 (F := Ideal)) := by
  rw [outsAt0_A m c t h0 h3]
  dsimp only
  exact ⟨(max_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h3 ((hcond0_1 t).mp h)) (iblk m c 0 t) (iblk m c 1 t)).trans (pay1_eq _),
    sum_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h3 ((hcond0_1 t).mp h)) (iblk m c 0 t) (iblk m c 1 t)⟩

/-- At the other key blocks it is the update of what the point before left. -/
theorem scratch_next (t : Fin cfg0.N) (h0 : ¬t.val % 4 = 0) :
    (outsAt0 m c t.val t.isLt).2.1
        = k0_pay6 (F := Ideal) (X0 m c t) (X1 m c t) (outsAt0 m c (t.val - 1) (Nat.lt_of_le_of_lt (Nat.sub_le _ _) t.isLt)).2.1
    ∧ (outsAt0 m c t.val t.isLt).2.2
        = k0_pay7 (F := Ideal) (X0 m c t) (X1 m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2 := by
  by_cases h3 : t.val % 4 = 3
  · rw [outsAt0_C m c t h0 h3]
    dsimp only
    exact ⟨(max_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).trans (pay1_eq _),
      sum_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h3]
    dsimp only
    exact ⟨(max_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h3 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).trans (pay1_eq _),
      sum_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h3 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2⟩

/-- At the last key block the output block is emitted from the pair just stored. -/
theorem out_at_last (t : Fin cfg0.N) (h0 : ¬t.val % 4 = 0) (h3 : t.val % 4 = 3) :
    (outsAt0 m c t.val t.isLt).1
      = k0_pay2 (F := Ideal) (outsAt0 m c t.val t.isLt).2.1 (outsAt0 m c t.val t.isLt).2.2 := by
  rw [outsAt0_C m c t h0 h3]
  dsimp only
  refine (out_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).trans ?_
  exact congrArg₂ (k0_pay2 (F := Ideal))
    (max_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).symm
    (sum_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).symm

/-! ## The scores of a block are real numbers -/

variable (a1 a2 : SArg.Idx → ℝ)
variable (h1 : m ((c : Thread nD τ).loc main_arg0) = fun i => ((a1 i : ℝ) : EReal))
variable (h2 : m ((c : Thread nD τ).loc main_arg1) = fun i => ((a2 i : ℝ) : EReal))

/-- Tile k of the scores of column r = (b, t'): the scores against rows k · 1024 … of the first argument. -/
def tiles (r : Fin 4 × Fin 4096) (k : ℕ) (j : Fin 1024) : ℝ := score a1 a2 r (rowT k j)

include h1 h2 in
/-- The inner product of query row (b, q) and key row (b, j) of a point's blocks is the score of column
    (b, (point / 4) · 1024 + q) against row (point % 4) · 1024 + j. -/
theorem block_scores (t : Fin cfg0.N) (b : Fin 4) (q j : Fin 1024) :
    ∑ d : Fin 256, X0 m c t (ix3 b q d) * X1 m c t (ix3 b j d)
      = ((tiles a1 a2 (b, rowT (t.val / 4) q) (t.val % 4) j : ℝ) : EReal) := by
  unfold tiles score
  rw [← sum_coe]
  refine Finset.sum_congr rfl fun d _ => ?_
  unfold X0 X1
  rw [iblk0_apply, iblk1_apply, V_main_arg1, V_main_v0, h1, h2]
  show ((a2 _ : ℝ) : EReal) * ((a1 _ : ℝ) : EReal) = _
  rw [← EReal.coe_mul, mul_comm]

/-! ## The invariant -/

/-- After point n the carried pair of row (b, q) is the running maximum and running sum over key tiles 0 … n % 4 of the
    scores of column (b, (n / 4) · 1024 + q). -/
def Carried (n : ℕ) (hn : n < cfg0.N) : Prop := ∀ (b : Fin 4) (q : Fin 1024),
  (outsAt0 m c n hn).2.1 (ix3 b q (0 : Fin 1)) = ((runMax (tiles a1 a2 (b, rowT (n / 4) q)) (n % 4) : ℝ) : EReal)
  ∧ (outsAt0 m c n hn).2.2 (ix3 b q (0 : Fin 1)) = ((runSum (tiles a1 a2 (b, rowT (n / 4) q)) (n % 4) : ℝ) : EReal)

include h1 h2 in
theorem carried_first (t : Fin cfg0.N) (h0 : t.val % 4 = 0) : Carried m c a1 a2 t.val t.isLt := by
  intro b q
  have h3 : ¬t.val % 4 = 3 := by omega
  obtain ⟨e0, e1⟩ := scratch_first m c t h0 h3
  rw [e0, e1,
    max_first_real _ _ (fun b q j => tiles a1 a2 (b, rowT (t.val / 4) q) (t.val % 4) j) (block_scores m c a1 a2 h1 h2 t) b q 0,
    sum_first_real _ _ (fun b q j => tiles a1 a2 (b, rowT (t.val / 4) q) (t.val % 4) j) (block_scores m c a1 a2 h1 h2 t) b q 0,
    h0]
  exact ⟨rfl, rfl⟩

include h1 h2 in
theorem carried_next (n : ℕ) (hn : n + 1 < cfg0.N) (h0 : ¬(n + 1) % 4 = 0)
    (ih : Carried m c a1 a2 n (Nat.lt_of_succ_lt hn)) : Carried m c a1 a2 (n + 1) hn := by
  intro b q
  have eq4 : n / 4 = (n + 1) / 4 := by omega
  have em4 : (n + 1) % 4 = n % 4 + 1 := by omega
  obtain ⟨e0, e1⟩ := scratch_next m c ⟨n + 1, hn⟩ h0
  have ih0 : ∀ b q, (outsAt0 m c ((⟨n + 1, hn⟩ : Fin cfg0.N).val - 1) (Nat.lt_of_le_of_lt (Nat.sub_le _ _) (⟨n + 1, hn⟩ : Fin cfg0.N).isLt)).2.1 (ix3 b q (0 : Fin 1))
      = ((runMax (tiles a1 a2 (b, rowT ((n + 1) / 4) q)) (n % 4) : ℝ) : EReal) := fun b q => by
    have := (ih b q).1; rw [eq4] at this; exact this
  have ih1 : ∀ b q, (outsAt0 m c ((⟨n + 1, hn⟩ : Fin cfg0.N).val - 1) (Nat.lt_of_le_of_lt (Nat.sub_le _ _) (⟨n + 1, hn⟩ : Fin cfg0.N).isLt)).2.2 (ix3 b q (0 : Fin 1))
      = ((runSum (tiles a1 a2 (b, rowT ((n + 1) / 4) q)) (n % 4) : ℝ) : EReal) := fun b q => by
    have := (ih b q).2; rw [eq4] at this; exact this
  show (outsAt0 m c (⟨n + 1, hn⟩ : Fin cfg0.N).val (⟨n + 1, hn⟩ : Fin cfg0.N).isLt).2.1 (ix3 b q (0 : Fin 1)) = _
    ∧ (outsAt0 m c (⟨n + 1, hn⟩ : Fin cfg0.N).val (⟨n + 1, hn⟩ : Fin cfg0.N).isLt).2.2 (ix3 b q (0 : Fin 1)) = _
  rw [e0, e1,
    max_next_real _ _ (fun b q j => tiles a1 a2 (b, rowT ((n + 1) / 4) q) ((n + 1) % 4) j)
      (block_scores m c a1 a2 h1 h2 ⟨n + 1, hn⟩) _ _ ih0 b q 0,
    sum_next_real _ _ (fun b q j => tiles a1 a2 (b, rowT ((n + 1) / 4) q) ((n + 1) % 4) j)
      (block_scores m c a1 a2 h1 h2 ⟨n + 1, hn⟩) _ _ _ _ ih0 ih1 b q 0,
    em4]
  exact ⟨rfl, rfl⟩

include h1 h2 in
/-- The invariant holds after every point. -/
theorem carried : ∀ (n : ℕ) (hn : n < cfg0.N), Carried m c a1 a2 n hn
  | 0, hn => carried_first m c a1 a2 h1 h2 ⟨0, hn⟩ rfl
  | n + 1, hn => by
    by_cases h0 : (n + 1) % 4 = 0
    · exact carried_first m c a1 a2 h1 h2 ⟨n + 1, hn⟩ h0
    · exact carried_next m c a1 a2 h1 h2 n hn h0 (carried n (Nat.lt_of_succ_lt hn))

/-! ## What the last key block emits -/

/-- The log-sum-exp of column r of the scores. -/
def lse (r : Fin 4 × Fin 4096) : ℝ := rowMax (score a1 a2) r + Real.log (rowSum (score a1 a2) r)

theorem tiles_tiling (r : Fin 4 × Fin 4096) (k : ℕ) (hk : k < 4) (j : Fin 1024) :
    tiles a1 a2 r k j = score a1 a2 r ⟨k * 1024 + j.val, Cert.OnlineSoftmax.tile_lt hk j⟩ := by
  unfold tiles
  refine congrArg _ (Fin.ext ?_)
  show k % 4 * 1024 + j.val = k * 1024 + j.val
  rw [Nat.mod_eq_of_lt hk]

theorem runMax_three (r : Fin 4 × Fin 4096) : runMax (tiles a1 a2 r) 3 = rowMax (score a1 a2) r :=
  runMax_last (nb := 4) (n := 1024) (tiles a1 a2 r) (score a1 a2 r) (by norm_num) (tiles_tiling a1 a2 r)

theorem runSum_three (r : Fin 4 × Fin 4096) : runSum (tiles a1 a2 r) 3 = rowSum (score a1 a2) r :=
  runSum_last (nb := 4) (n := 1024) (tiles a1 a2 r) (score a1 a2 r) (by norm_num) (tiles_tiling a1 a2 r)

include h1 h2 in
/-- At the last key block of a query tile the output block holds the log-sum-exp of its columns. -/
theorem out_block (t : Fin cfg0.N) (h3 : t.val % 4 = 3) (b : Fin 4) (q : Fin 1024) :
    (outsAt0 m c t.val t.isLt).1 (ix2 b q) = ((lse a1 a2 (b, rowT (t.val / 4) q) : ℝ) : EReal) := by
  have h0 : ¬t.val % 4 = 0 := by omega
  have hc := carried m c a1 a2 h1 h2 t.val t.isLt
  unfold Carried at hc
  rw [h3] at hc
  rw [out_at_last m c t h0 h3]
  refine (out_real _ _ (fun b q => runMax (tiles a1 a2 (b, rowT (t.val / 4) q)) 3)
    (fun b q => runSum (tiles a1 a2 (b, rowT (t.val / 4) q)) 3) (fun b q => (hc b q).1) (fun b q => (hc b q).2)
    (fun b q => by rw [runSum_three]; exact rowSum_pos _ _) b q).trans ?_
  rw [runMax_three, runSum_three]
  rfl

end Cert.KernelIdeal.Inv

end
-- ==== Proof.KernelValue.lean ====
/-
  The kernel program's result.

  The region's result array [4, 4096] ends holding, at (b, t'), the log-sum-exp of column (b, t') of the scores: the
  output block of query tile T is written back once, after its last key block, and the four tiles fill the array.  The
  host then forms, for every pair (b, t'), the inner product of rows (b, t') of the two arguments times 1, minus that
  log-sum-exp — which is the diagonal log-probability — and finishes with the common tail (sum, divide, negate).
-/
import proofs.«166531_j1056561955228_2_alg».proof.Proof.KernelInv
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LseValue

open Cert.KernelIdeal Cert.KernelIdeal.Gen Cert.KernelIdeal.Blocks Cert.KernelIdeal.Inv Cert.Spec
open Idealize.ShloMosaic.SoftmaxPeak

variable (m : (ℓ : Loc nD τ sig) → Buf (Elt Ideal) ℓ) (ρ : Dev nD → PrngReg) (c : Dev nD)
variable (a1 a2 : SArg.Idx → ℝ)
variable (h1 : m ((c : Thread nD τ).loc main_arg0) = fun i => ((a1 i : ℝ) : EReal))
variable (h2 : m ((c : Thread nD τ).loc main_arg1) = fun i => ((a2 i : ℝ) : EReal))

/-- The array of log-sum-exps, indexed by (b, t'). -/
def lseArr : S4x4096.Idx → EReal := fun i => ((lse a1 a2 (i 0, i 1) : ℝ) : EReal)

include h1 h2 in
/-- The output block after the last key block of a query tile, at any index of the block. -/
theorem out_block_at (t : Fin cfg0.N) (h3 : t.val % 4 = 3) (j : S4x1024.Idx) :
    (outsAt0 m c t.val t.isLt).1 j = ((lse a1 a2 (j 0, rowT (t.val / 4) (j 1)) : ℝ) : EReal) := by
  exact (congrArg (outsAt0 m c t.val t.isLt).1 (eq_ix2 j)).trans (out_block m c a1 a2 h1 h2 t h3 (j 0) (j 1))

include h1 h2 in
/-- What a flushing point writes back is its block of the array of log-sum-exps. -/
theorem flushed_eq (t : Fin cfg0.N) (hf : (cfg0.win 2).flush t = true) :
    (dats m 0 c).flushed 2 t = ((cfg0.win 2).blk t).view.read (Elt Ideal) (lseArr a1 a2) := by
  have h3 : t.val % 4 = 3 := (flush0_2 t).mp hf
  obtain ⟨-, -, -, -, -, -, e0, e1⟩ := idx_facts t
  have ht := point_lt t
  show (cfg0.win 2).cut (grid0.coords t) ((dats m 0 c).after 2 t) = _
  rw [after0_2]
  funext j
  show (outsAt0 m c t.val t.isLt).1 j = lseArr a1 a2 (((cfg0.win 2).blk t).view.emb j)
  rw [out_block_at m c a1 a2 h1 h2 t h3]
  unfold lseArr
  have hj0 : (j 0).val < 4 := (j 0).isLt
  have hj1 : (j 1).val < 1024 := (j 1).isLt
  refine congrArg (fun r => ((lse a1 a2 r : ℝ) : EReal)) (Prod.ext (Fin.ext ?_) (Fin.ext ?_))
  · show (j 0).val = win0_2.index t (0 : Fin 2) * 4 + 1 * (j 0).val
    omega
  · show t.val / 4 % 4 * 1024 + (j 1).val = win0_2.index t (1 : Fin 2) * 1024 + 1 * (j 1).val
    omega

/-- An index of the array is in a point's block iff each coordinate is in the block's range. -/
theorem mem_blk (t : Fin cfg0.N) (i : S4x4096.Idx) :
    i ∈ ((cfg0.win 2).blk t).view.set ↔ ∀ a : Fin 2, win0_2.index t a * S4x1024.size a ≤ (i a).val ∧ (i a).val < win0_2.index t a * S4x1024.size a + S4x1024.size a := by
  show i ∈ ((View.whole main_v1).slice (win0_2.rect t)).set ↔ _
  rw [View.set_slice_whole, Rect.mem_set_unit]
  exact Iff.rfl

/-- Every index of the array is written back by the last point of its query tile. -/
theorem cover (i : S4x4096.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hN : cfg0.N = 16 := N_0
  obtain ⟨t, ht⟩ : ∃ t : Fin cfg0.N, t.val = 4 * ((i 1).val / 1024) + 3 := ⟨⟨4 * ((i 1).val / 1024) + 3, by omega⟩, rfl⟩
  refine ⟨t, (flush0_2 t).mpr (by omega), ?_⟩
  rw [mem_blk]
  obtain ⟨-, -, -, -, -, -, e0, e1⟩ := idx_facts t
  intro a
  match a with
  | ⟨0, _⟩ =>
    show win0_2.index t (0 : Fin 2) * 4 ≤ (i 0).val ∧ (i 0).val < win0_2.index t (0 : Fin 2) * 4 + 4
    omega
  | ⟨1, _⟩ =>
    show win0_2.index t (1 : Fin 2) * 1024 ≤ (i 1).val ∧ (i 1).val < win0_2.index t (1 : Fin 2) * 1024 + 1024
    omega

include h1 h2 in
/-- The region's result array after the run. -/
theorem final : (dats m 0 c).arrAt 2 cfg0.N = lseArr a1 a2 :=
  (dats m 0 c).arrAt_eq_of_cover 2 (lseArr a1 a2) (flushed_eq m c a1 a2 h1 h2) cover

/-! ## The host operations after the region -/

/-- The host's per-pair terms from the two arguments and the region's result: the inner product of rows (b, t') of the
    arguments (summed from zero), times the literal 1, minus the region's result at (b, t'). -/
def kerTerms (z1 z2 : FVec Ideal S4x4096x256 .f32) (L : FVec Ideal S4x4096 .f32) : FVec Ideal S4x4096 .f32 :=
  subf (mulf (Host.reduceAdd (mulf z1 z2) (constant (F := Ideal) S_ .f32 0x00000000#32) Facts₀.reducesTo_S4x4096x256_S4x4096_d2 Facts₀.h_S_)
    (broadcastInDim S4x4096 ![] Facts₀.bcast_S_S4x4096 (constant (F := Ideal) S_ .f32 0x3F800000#32))) L

include h1 h2 in
/-- After the host's last operations the result is the common tail of those terms. -/
theorem tail_eq : Pipeline.afterTail₀ cfgs (dats m) 0 (V0 m) [hostOps1] c main_v9
    = lossTail Facts₀.reducesTo_S4x4096_S_d0_1 Facts₀.h_S_
        (kerTerms (m ((c : Thread nD τ).loc main_arg0)) (m ((c : Thread nD τ).loc main_arg1)) (lseArr a1 a2)) := by
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by decide)).trans (V_main_arg0 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_arr spec0 launch0.win.arr_inj c (V0 m c) _ 0).trans
      (((dats m 0 c).arrAt_in 0 rfl _).trans ((A_eq m c 0).trans (V_main_arg1 m c)))
  have e2 : Pipeline.withArrays (cfgs 0).spec c (V0 m c) (fun w => (dats m 0 c).arrAt w (cfgs 0).N) (Proc.devRef .tc main_v1)
      = lseArr a1 a2 :=
    (Pipeline.withArrays_arr spec0 launch0.win.arr_inj c (V0 m c) _ 2).trans (final m c a1 a2 h1 h2)
  unfold Pipeline.afterTail₀
  show StableHlo.after hostOps1 _ (Proc.devRef .tc main_v9) = _
  after_results
  rw [e0, e1, e2]
  rfl

/-- A scalar constant broadcast to [4, 4096], read at any index, is the constant. -/
theorem bcast_const (w : BitVec 32) (i : S4x4096.Idx) :
    broadcastInDim S4x4096 ![] Facts₀.bcast_S_S4x4096 (constant (F := Ideal) S_ .f32 w) i = Ideal.ofBits .f32 w :=
  broadcastInDim_apply _ Facts₀.bcast_S_S4x4096 (constant (F := Ideal) S_ .f32 w) i (fun a => a.elim0) (fun a => a.elim0)

/-- Over real arguments, with the region's result the log-sum-exps, the host's terms are the diagonal log-probabilities. -/
theorem kerTerms_coe : kerTerms (fun i => ((a1 i : ℝ) : EReal)) (fun i => ((a2 i : ℝ) : EReal)) (lseArr a1 a2) = termArr a1 a2 := by
  funext i
  obtain ⟨b, t, rfl⟩ : ∃ (b : Fin 4) (t : Fin 4096), i = ix2 b t := ⟨i 0, i 1, eq_ix2 i⟩
  unfold kerTerms
  rw [subf_apply, mulf_apply, bcast_const]
  simp only [Host.reduceAdd, Ideal.hostReduceAdd_def]
  have hR : S4x4096x256.Reduces [2] S4x4096 := by decide
  rw [Ideal.hostReduceAdd_single Facts₀.reducesTo_S4x4096x256_S4x4096_d2 hR]
  simp only [mulf_apply, ← EReal.coe_mul]
  rw [sum_coe]
  have hs : (∑ k, a1 (hR.lift (ix2 b t) k) * a2 (hR.lift (ix2 b t) k)) = score a1 a2 (b, t) t :=
    Finset.sum_congr rfl fun k _ => by rw [Cert.KernelIdeal.Pay.lift_last3 hR (ix2 b t) k]; rfl
  rw [hs]
  show (Ideal.ofBits .f32 0x00000000#32 + ((score a1 a2 (b, t) t : ℝ) : EReal)) * Ideal.ofBits .f32 0x3F800000#32
      - ((lse a1 a2 (b, t) : ℝ) : EReal) = ((term a1 a2 (b, t) : ℝ) : EReal)
  rw [Ideal.ofBits_zero_f32, zero_add, Cert.KernelIdeal.Step.ofBits_one, mul_one, ← EReal.coe_sub]
  unfold term lse
  exact congrArg _ (by ring)

include h1 h2 in
/-- The program's result, over real arguments: the common tail of the diagonal log-probabilities. -/
theorem result_eq : Pipeline.afterTail₀ cfgs (dats m) 0 (V0 m) [hostOps1] c main_v9
    = lossTail Facts₀.reducesTo_S4x4096_S_d0_1 Facts₀.h_S_ (termArr a1 a2) := by
  refine (tail_eq m c a1 a2 h1 h2).trans ?_
  rw [h1, h2, kerTerms_coe]

/-- The two arguments as the launch finds them, at their literal type. -/
abbrev arg0At (c : Dev nD) : FVec Ideal S4x4096x256 .f32 := m ((c.tc : Thread nD τ).loc main_arg0)
abbrev arg1At (c : Dev nD) : FVec Ideal S4x4096x256 .f32 := m ((c.tc : Thread nD τ).loc main_arg1)

omit a1 a2 h1 h2 c in
/-- The run of the kernel program from finite arguments: the result is the common tail of the diagonal log-probabilities
    of the arguments' real values, and the arguments end unchanged. -/
theorem run (hf1 : ∀ (c : Dev nD) i, arg0At m c i ≠ ⊥ ∧ arg0At m c i ≠ ⊤)
    (hf2 : ∀ (c : Dev nD) i, arg1At m c i ≠ ⊥ ∧ arg1At m c i ≠ ⊤) :
    θ_run defs (onTc (τ := τ) (main (F := Ideal))) ⟨m, fun _ => 0, ρ⟩ fun r => ∀ c : Dev nD,
      r.2.mem ((c.tc : Thread nD τ).loc main_v9)
        = lossTail Facts₀.reducesTo_S4x4096_S_d0_1 Facts₀.h_S_
            (termArr (fun i => (arg0At m c i).toReal) (fun i => (arg1At m c i).toReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 (Pipeline.mem_restRefs_of main_v9 (by decide) (by decide))).trans
        (result_eq m c _ _ (eq_coe_toReal (arg0At m c) (hf1 c)) (eq_coe_toReal (arg1At m c) (hf2 c))),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.LseValue

end
-- ==== Proof.RefRun.lean ====
/-
  The reference program as the list of its host operations (the softmax helper's operations standing where it is
  called), and what a run of it leaves: every weakly fair execution terminates with the result at the operations'
  composed term of the two arguments, and the arguments unchanged.
-/
import proofs.«166531_j1056561955228_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The 33 operations, in order; the softmax helper's fifteen stand in its call's place, over the call's own buffers. -/
abbrev ops : List (HloOp τ sig (Elt F)) :=
  [ binary main_arg0 main_arg1 main_v0 ((fun l r => Host.dotGeneral dot_S4x4096x256_S4x4096x256_S4x4096x4096_2_2_1_1_0_0 none l r) : (⟨S4x4096x256, .f32⟩ : BufTy).Contents (Elt F) → (⟨S4x4096x256, .f32⟩ : BufTy).Contents (Elt F) → (⟨S4x4096x4096, .f32⟩ : BufTy).Contents (Elt F)),
    nullary main_cst (constant S_ .f32 0x3F800000#32),
    unary main_cst main_v1 (broadcastInDim S4x4096x4096 ![] bcast_S_S4x4096x4096 : (⟨S_, .f32⟩ : BufTy).Contents (Elt F) → (⟨S4x4096x4096, .f32⟩ : BufTy).Contents (Elt F)),
    binary main_v0 main_v1 main_v2 (Host.divf : (⟨S4x4096x4096, .f32⟩ : BufTy).Contents (Elt F) → (⟨S4x4096x4096, .f32⟩ : BufTy).Contents (Elt F) → (⟨S4x4096x4096, .f32⟩ : BufTy).Contents (Elt F)),
    nullary main_call0_cst (constant S_ .f32 0xFF800000#32),
    binary main_v2 main_call0_cst main_call0_v0 ((fun x v => Host.reduce FloatOps.maximumf x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F)),
    nullary main_call0_cst_0 (constant S_ .f32 0xFF800000#32),
    unary main_call0_cst_0 main_call0_v1 (broadcastInDim S4x4096 ![] bcast_S_S4x4096 : (⟨S_, .f32⟩ : BufTy).Contents (Elt F) → (⟨S4x4096, .f32⟩ : BufTy).Contents (Elt F)),
    binary main_call0_v1 main_call0_v0 main_call0_v2 ((maximumf) : (⟨S4x4096, .f32⟩ : BufTy).Contents (Elt F) → (⟨S4x4096, .f32⟩ : BufTy).Contents (Elt F) → (⟨S4x4096, .f32⟩ : BufTy).Contents (Elt F)),
    unary main_call0_v2 main_call0_v3 (broadcastInDim S4x1x4096 ![0, 2] bcast_S4x4096_S4x1x4096_0_2 : (⟨S4x4096, .f32⟩ : BufTy).Contents (Elt F) → (⟨S4x1x4096, .f32⟩ : BufTy).Contents (Elt F)),
    unary main_call0_v3 main_call0_v4 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    binary main_v2 main_call0_v4 main_call0_v5 ((subf) : (⟨S4x4096x4096, .f32⟩ : BufTy).Contents (Elt F) → (⟨S4x4096x4096, .f32⟩ : BufTy).Contents (Elt F) → (⟨S4x4096x4096, .f32⟩ : BufTy).Contents (Elt F)),
    unary main_call0_v5 main_call0_v6 (Host.exp : (⟨S4x4096x4096, .f32⟩ : BufTy).Contents (Elt F) → (⟨S4x4096x4096, .f32⟩ : BufTy).Contents (Elt F)),
    nullary main_call0_cst_1 (constant S_ .f32 0x00000000#32),
    binary main_call0_v6 main_call0_cst_1 main_call0_v7 ((fun x v => Host.reduceAdd x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F)),
    unary main_call0_v7 main_call0_v8 (broadcastInDim S4x1x4096 ![0, 2] bcast_S4x4096_S4x1x4096_0_2 : (⟨S4x4096, .f32⟩ : BufTy).Contents (Elt F) → (⟨S4x1x4096, .f32⟩ : BufTy).Contents (Elt F)),
    unary main_call0_v8 main_call0_v9 (Host.log : (⟨S4x1x4096, .f32⟩ : BufTy).Contents (Elt F) → (⟨S4x1x4096, .f32⟩ : BufTy).Contents (Elt F)),
    unary main_call0_v9 main_call0_v10 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    binary main_call0_v5 main_call0_v10 main_v3 ((subf) : (⟨S4x4096x4096, .f32⟩ : BufTy).Contents (Elt F) → (⟨S4x4096x4096, .f32⟩ : BufTy).Contents (Elt F) → (⟨S4x4096x4096, .f32⟩ : BufTy).Contents (Elt F)),
    nullary main_v4 (iotaInDim S4096x4096 32 0),
    nullary main_v5 (iotaInDim S4096x4096 32 1),
    binary main_v4 main_v5 main_v6 (cmpi .eq : (⟨S4096x4096, .i32⟩ : BufTy).Contents (Elt F) → (⟨S4096x4096, .i32⟩ : BufTy).Contents (Elt F) → (⟨S4096x4096, .i1⟩ : BufTy).Contents (Elt F)),
    unary main_v6 main_v7 (broadcastInDim S4x4096x4096 ![1, 2] bcast_S4096x4096_S4x4096x4096_1_2 : (⟨S4096x4096, .i1⟩ : BufTy).Contents (Elt F) → (⟨S4x4096x4096, .i1⟩ : BufTy).Contents (Elt F)),
    nullary main_cst_0 (constant S_ .f32 0x00000000#32),
    unary main_cst_0 main_v8 (broadcastInDim S4x4096x4096 ![] bcast_S_S4x4096x4096 : (⟨S_, .f32⟩ : BufTy).Contents (Elt F) → (⟨S4x4096x4096, .f32⟩ : BufTy).Contents (Elt F)),
    ternary main_v7 main_v3 main_v8 main_v9 (select : (⟨S4x4096x4096, .i1⟩ : BufTy).Contents (Elt F) → (⟨S4x4096x4096, .f32⟩ : BufTy).Contents (Elt F) → (⟨S4x4096x4096, .f32⟩ : BufTy).Contents (Elt F) → (⟨S4x4096x4096, .f32⟩ : BufTy).Contents (Elt F)),
    nullary main_cst_1 (constant S_ .f32 0x00000000#32),
    binary main_v9 main_cst_1 main_v10 ((fun x v => Host.reduceAdd x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F)),
    nullary main_cst_2 (constant S_ .f32 0x00000000#32),
    binary main_v10 main_cst_2 main_v11 ((fun x v => Host.reduceAdd x v reducesTo_S4x4096_S_d0_1 h_S_) : (⟨S4x4096, .f32⟩ : BufTy).Contents (Elt F) → (⟨S_, .f32⟩ : BufTy).Contents (Elt F) → (⟨S_, .f32⟩ : BufTy).Contents (Elt F)),
    nullary main_cst_3 (constant S_ .f32 0x46800000#32),
    binary main_v11 main_cst_3 main_v12 (Host.divf : (⟨S_, .f32⟩ : BufTy).Contents (Elt F) → (⟨S_, .f32⟩ : BufTy).Contents (Elt F) → (⟨S_, .f32⟩ : BufTy).Contents (Elt F)),
    unary main_v12 main_v13 (Host.negf : (⟨S_, .f32⟩ : BufTy).Contents (Elt F) → (⟨S_, .f32⟩ : BufTy).Contents (Elt F)) ]

attribute [local irreducible] Host.reduce Host.reduceAdd in
set_option maxRecDepth 200000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., binary_bufs_sub .., unary_bufs_sub .., nullary_bufs_sub .., unary_bufs_sub .., ternary_bufs_sub .., nullary_bufs_sub .., binary_bufs_sub .., nullary_bufs_sub .., binary_bufs_sub .., nullary_bufs_sub .., binary_bufs_sub .., unary_bufs_sub ..⟩

set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = Host.negf (Host.divf (Host.reduceAdd (Host.reduceAdd (select (broadcastInDim S4x4096x4096 ![1, 2] bcast_S4096x4096_S4x4096x4096_1_2 (cmpi .eq (iotaInDim S4096x4096 32 0) (iotaInDim S4096x4096 32 1))) (subf (subf (Host.divf (Host.dotGeneral dot_S4x4096x256_S4x4096x256_S4x4096x4096_2_2_1_1_0_0 none (m ((c.tc : Thread nD τ).loc main_arg0)) (m ((c.tc : Thread nD τ).loc main_arg1))) (broadcastInDim S4x4096x4096 ![] bcast_S_S4x4096x4096 (constant S_ .f32 0x3F800000#32))) (broadcastInDim S4x4096x4096 ![0, 1, 2] bcast_S4x1x4096_S4x4096x4096_0_1_2 (broadcastInDim S4x1x4096 ![0, 2] bcast_S4x4096_S4x1x4096_0_2 (maximumf (broadcastInDim S4x4096 ![] bcast_S_S4x4096 (constant S_ .f32 0xFF800000#32)) (Host.reduce FloatOps.maximumf (Host.divf (Host.dotGeneral dot_S4x4096x256_S4x4096x256_S4x4096x4096_2_2_1_1_0_0 none (m ((c.tc : Thread nD τ).loc main_arg0)) (m ((c.tc : Thread nD τ).loc main_arg1))) (broadcastInDim S4x4096x4096 ![] bcast_S_S4x4096x4096 (constant S_ .f32 0x3F800000#32))) (constant S_ .f32 0xFF800000#32) reducesTo_S4x4096x4096_S4x4096_d1 h_S_))))) (broadcastInDim S4x4096x4096 ![0, 1, 2] bcast_S4x1x4096_S4x4096x4096_0_1_2 (Host.log (broadcastInDim S4x1x4096 ![0, 2] bcast_S4x4096_S4x1x4096_0_2 (Host.reduceAdd (Host.exp (subf (Host.divf (Host.dotGeneral dot_S4x4096x256_S4x4096x256_S4x4096x4096_2_2_1_1_0_0 none (m ((c.tc : Thread nD τ).loc main_arg0)) (m ((c.tc : Thread nD τ).loc main_arg1))) (broadcastInDim S4x4096x4096 ![] bcast_S_S4x4096x4096 (constant S_ .f32 0x3F800000#32))) (broadcastInDim S4x4096x4096 ![0, 1, 2] bcast_S4x1x4096_S4x4096x4096_0_1_2 (broadcastInDim S4x1x4096 ![0, 2] bcast_S4x4096_S4x1x4096_0_2 (maximumf (broadcastInDim S4x4096 ![] bcast_S_S4x4096 (constant S_ .f32 0xFF800000#32)) (Host.reduce FloatOps.maximumf (Host.divf (Host.dotGeneral dot_S4x4096x256_S4x4096x256_S4x4096x4096_2_2_1_1_0_0 none (m ((c.tc : Thread nD τ).loc main_arg0)) (m ((c.tc : Thread nD τ).loc main_arg1))) (broadcastInDim S4x4096x4096 ![] bcast_S_S4x4096x4096 (constant S_ .f32 0x3F800000#32))) (constant S_ .f32 0xFF800000#32) reducesTo_S4x4096x4096_S4x4096_d1 h_S_)))))) (constant S_ .f32 0x00000000#32) reducesTo_S4x4096x4096_S4x4096_d1 h_S_))))) (broadcastInDim S4x4096x4096 ![] bcast_S_S4x4096x4096 (constant S_ .f32 0x00000000#32))) (constant S_ .f32 0x00000000#32) reducesTo_S4x4096x4096_S4x4096_d1 h_S_) (constant S_ .f32 0x00000000#32) reducesTo_S4x4096_S_d0_1 h_S_) (constant S_ .f32 0x46800000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v13).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HostRun

end
-- ==== Proof.RefValue.lean ====
/-
  The value of the reference program, for finite arguments.

  The reference forms, for every batch b, the 4096 × 4096 array of scores x (s, t) = ⟨z1[b, s, ·], z2[b, t, ·]⟩ (a
  contraction over the 256 features, divided by 1), takes a log-softmax down each column t — the column's largest
  score M, the column's sum L of exp (x - M) over the rows s, and (x - M) - log L at every (s, t) —, keeps the diagonal
  s = t (an equality of two index grids, broadcast over the batch; every other entry is replaced by 0) and sums each
  column over s, which leaves the one diagonal entry: the array of terms indexed by (b, t). It then sums all terms,
  divides by 16384 and negates.

  Here each of these arrays is read at an index. The stages are stated over an arbitrary score array x, so that no
  statement holds more than one reduction; then they are put together for arguments that are real numbers, where the
  array of terms is the array of the real terms of the specification.
-/
import proofs.«166531_j1056561955228_2_alg».proof.Proof.Gen.ReferenceIdeal
import proofs.«166531_j1056561955228_2_alg».proof.ReferenceIdeal
import proofs.«166531_j1056561955228_2_alg».proof.Proof.Spec
import proofs.«166531_j1056561955228_2_alg».proof.Proof.LibReduceExtremum
import proofs.«166531_j1056561955228_2_alg».proof.Proof.LibSoftmaxPeak
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open Idealize.ShloMosaic.SoftmaxPeak Idealize.ShloMosaic.ReduceExtremum
open scoped BigOperators

/-! ## The program's term -/

/-- The array of per-(b, t) terms: the program's value before its last sum. -/
def refTerms (z1 z2 : FVec Ideal S4x4096x256 .f32) : FVec Ideal S4x4096 .f32 :=
  Host.reduceAdd (select (broadcastInDim S4x4096x4096 ![1, 2] bcast_S4096x4096_S4x4096x4096_1_2 (cmpi .eq (iotaInDim S4096x4096 32 0) (iotaInDim S4096x4096 32 1))) (subf (subf (Host.divf (Host.dotGeneral dot_S4x4096x256_S4x4096x256_S4x4096x4096_2_2_1_1_0_0 none z1 z2) (broadcastInDim S4x4096x4096 ![] bcast_S_S4x4096x4096 (constant (F := Ideal) S_ .f32 0x3F800000#32))) (broadcastInDim S4x4096x4096 ![0, 1, 2] bcast_S4x1x4096_S4x4096x4096_0_1_2 (broadcastInDim S4x1x4096 ![0, 2] bcast_S4x4096_S4x1x4096_0_2 (maximumf (broadcastInDim S4x4096 ![] bcast_S_S4x4096 (constant (F := Ideal) S_ .f32 0xFF800000#32)) (Host.reduce FloatOps.maximumf (Host.divf (Host.dotGeneral dot_S4x4096x256_S4x4096x256_S4x4096x4096_2_2_1_1_0_0 none z1 z2) (broadcastInDim S4x4096x4096 ![] bcast_S_S4x4096x4096 (constant (F := Ideal) S_ .f32 0x3F800000#32))) (constant (F := Ideal) S_ .f32 0xFF800000#32) reducesTo_S4x4096x4096_S4x4096_d1 h_S_))))) (broadcastInDim S4x4096x4096 ![0, 1, 2] bcast_S4x1x4096_S4x4096x4096_0_1_2 (Host.log (broadcastInDim S4x1x4096 ![0, 2] bcast_S4x4096_S4x1x4096_0_2 (Host.reduceAdd (Host.exp (subf (Host.divf (Host.dotGeneral dot_S4x4096x256_S4x4096x256_S4x4096x4096_2_2_1_1_0_0 none z1 z2) (broadcastInDim S4x4096x4096 ![] bcast_S_S4x4096x4096 (constant (F := Ideal) S_ .f32 0x3F800000#32))) (broadcastInDim S4x4096x4096 ![0, 1, 2] bcast_S4x1x4096_S4x4096x4096_0_1_2 (broadcastInDim S4x1x4096 ![0, 2] bcast_S4x4096_S4x1x4096_0_2 (maximumf (broadcastInDim S4x4096 ![] bcast_S_S4x4096 (constant (F := Ideal) S_ .f32 0xFF800000#32)) (Host.reduce FloatOps.maximumf (Host.divf (Host.dotGeneral dot_S4x4096x256_S4x4096x256_S4x4096x4096_2_2_1_1_0_0 none z1 z2) (broadcastInDim S4x4096x4096 ![] bcast_S_S4x4096x4096 (constant (F := Ideal) S_ .f32 0x3F800000#32))) (constant (F := Ideal) S_ .f32 0xFF800000#32) reducesTo_S4x4096x4096_S4x4096_d1 h_S_)))))) (constant (F := Ideal) S_ .f32 0x00000000#32) reducesTo_S4x4096x4096_S4x4096_d1 h_S_))))) (broadcastInDim S4x4096x4096 ![] bcast_S_S4x4096x4096 (constant (F := Ideal) S_ .f32 0x00000000#32))) (constant (F := Ideal) S_ .f32 0x00000000#32) reducesTo_S4x4096x4096_S4x4096_d1 h_S_

/-- The program's result is the common tail (sum everything, divide by 16384, negate) of the array of terms. -/
theorem result_eq (z1 z2 : FVec Ideal S4x4096x256 .f32) :
    Host.negf (Host.divf (Host.reduceAdd (Host.reduceAdd (select (broadcastInDim S4x4096x4096 ![1, 2] bcast_S4096x4096_S4x4096x4096_1_2 (cmpi .eq (iotaInDim S4096x4096 32 0) (iotaInDim S4096x4096 32 1))) (subf (subf (Host.divf (Host.dotGeneral dot_S4x4096x256_S4x4096x256_S4x4096x4096_2_2_1_1_0_0 none z1 z2) (broadcastInDim S4x4096x4096 ![] bcast_S_S4x4096x4096 (constant (F := Ideal) S_ .f32 0x3F800000#32))) (broadcastInDim S4x4096x4096 ![0, 1, 2] bcast_S4x1x4096_S4x4096x4096_0_1_2 (broadcastInDim S4x1x4096 ![0, 2] bcast_S4x4096_S4x1x4096_0_2 (maximumf (broadcastInDim S4x4096 ![] bcast_S_S4x4096 (constant (F := Ideal) S_ .f32 0xFF800000#32)) (Host.reduce FloatOps.maximumf (Host.divf (Host.dotGeneral dot_S4x4096x256_S4x4096x256_S4x4096x4096_2_2_1_1_0_0 none z1 z2) (broadcastInDim S4x4096x4096 ![] bcast_S_S4x4096x4096 (constant (F := Ideal) S_ .f32 0x3F800000#32))) (constant (F := Ideal) S_ .f32 0xFF800000#32) reducesTo_S4x4096x4096_S4x4096_d1 h_S_))))) (broadcastInDim S4x4096x4096 ![0, 1, 2] bcast_S4x1x4096_S4x4096x4096_0_1_2 (Host.log (broadcastInDim S4x1x4096 ![0, 2] bcast_S4x4096_S4x1x4096_0_2 (Host.reduceAdd (Host.exp (subf (Host.divf (Host.dotGeneral dot_S4x4096x256_S4x4096x256_S4x4096x4096_2_2_1_1_0_0 none z1 z2) (broadcastInDim S4x4096x4096 ![] bcast_S_S4x4096x4096 (constant (F := Ideal) S_ .f32 0x3F800000#32))) (broadcastInDim S4x4096x4096 ![0, 1, 2] bcast_S4x1x4096_S4x4096x4096_0_1_2 (broadcastInDim S4x1x4096 ![0, 2] bcast_S4x4096_S4x1x4096_0_2 (maximumf (broadcastInDim S4x4096 ![] bcast_S_S4x4096 (constant (F := Ideal) S_ .f32 0xFF800000#32)) (Host.reduce FloatOps.maximumf (Host.divf (Host.dotGeneral dot_S4x4096x256_S4x4096x256_S4x4096x4096_2_2_1_1_0_0 none z1 z2) (broadcastInDim S4x4096x4096 ![] bcast_S_S4x4096x4096 (constant (F := Ideal) S_ .f32 0x3F800000#32))) (constant (F := Ideal) S_ .f32 0xFF800000#32) reducesTo_S4x4096x4096_S4x4096_d1 h_S_)))))) (constant (F := Ideal) S_ .f32 0x00000000#32) reducesTo_S4x4096x4096_S4x4096_d1 h_S_))))) (broadcastInDim S4x4096x4096 ![] bcast_S_S4x4096x4096 (constant (F := Ideal) S_ .f32 0x00000000#32))) (constant (F := Ideal) S_ .f32 0x00000000#32) reducesTo_S4x4096x4096_S4x4096_d1 h_S_) (constant (F := Ideal) S_ .f32 0x00000000#32) reducesTo_S4x4096_S_d0_1 h_S_) (constant (F := Ideal) S_ .f32 0x46800000#32))
      = Cert.Spec.lossTail reducesTo_S4x4096_S_d0_1 h_S_ (refTerms z1 z2) := rfl

/-! ## Small facts: constants, index grids, layout operations at an index -/

/-- The f32 pattern `0x3F800000` denotes 1. -/
theorem ofBits_one_f32 : Ideal.ofBits .f32 0x3F800000#32 = 1 := by
  simp [Ideal.ofBits, Ideal.ieee, -EReal.coe_mul]; norm_num

/-- Dividing by 1 changes nothing, at the infinities too. -/
theorem div_one' (x : EReal) : Ideal.div x 1 = x := by
  rw [← EReal.coe_one, Ideal.div_coe one_ne_zero, div_one, EReal.coe_one, mul_one]

/-- The host's elementwise operations at an index, in the exact reading. -/
theorem hostLog_apply {s : Shape} {φ : FTy} (w : FVec Ideal s φ) (i : s.Idx) : Host.log w i = Ideal.log (w i) := rfl
theorem hostExp_apply {s : Shape} {φ : FTy} (w : FVec Ideal s φ) (i : s.Idx) : Host.exp w i = Ideal.exp (w i) := rfl
theorem hostDivf_apply {s : Shape} {φ : FTy} (a b : FVec Ideal s φ) (i : s.Idx) :
    Host.divf a b i = Ideal.div (a i) (b i) := rfl

/-- A scalar broadcast to any shape reads the scalar everywhere. -/
theorem bcast_scalar {α : Type} (t : Shape) (h : S_.BroadcastsInDim t (![] : Fin 0 → Fin t.rank)) (c : S_.Idx → α)
    (i : t.Idx) : broadcastInDim t ![] h c i = c ix0 :=
  broadcastInDim_apply _ h c i ix0 (fun a => a.elim0)

/-- A [4, 4096] array placed on axes 0 and 2 of [4, 1, 4096] reads at (b, u, t) its entry (b, t). -/
theorem bcast_row {α : Type} (y : S4x4096.Idx → α) (b : Fin 4) (u : Fin 1) (t : Fin 4096) :
    broadcastInDim S4x1x4096 ![0, 2] bcast_S4x4096_S4x1x4096_0_2 y (ix3 b u t) = y (ix2 b t) :=
  broadcastInDim_apply _ bcast_S4x4096_S4x1x4096_0_2 y (ix3 b u t) (ix2 b t) (fun a => match a with
    | ⟨0, _⟩ => by show b.val = if (4 : Nat) = 1 then 0 else b.val; rw [if_neg (by decide)]
    | ⟨1, _⟩ => by show t.val = if (4096 : Nat) = 1 then 0 else t.val; rw [if_neg (by decide)])

/-- A [4, 1, 4096] array broadcast along its unit axis to [4, 4096, 4096] reads at (b, s, t) its entry (b, 0, t). -/
theorem bcast_col {α : Type} (w : S4x1x4096.Idx → α) (b : Fin 4) (s t : Fin 4096) :
    broadcastInDim S4x4096x4096 ![0, 1, 2] bcast_S4x1x4096_S4x4096x4096_0_1_2 w (ix3 b s t) = w (ix3 b 0 t) :=
  broadcastInDim_apply _ bcast_S4x1x4096_S4x4096x4096_0_1_2 w (ix3 b s t) (ix3 b 0 t) (fun a => match a with
    | ⟨0, _⟩ => by show b.val = if (4 : Nat) = 1 then 0 else b.val; rw [if_neg (by decide)]
    | ⟨1, _⟩ => by show 0 = if (1 : Nat) = 1 then 0 else s.val; rw [if_pos rfl]
    | ⟨2, _⟩ => by show t.val = if (4096 : Nat) = 1 then 0 else t.val; rw [if_neg (by decide)])

/-- A [4096, 4096] array repeated over a new leading batch axis reads at (b, s, t) its entry (s, t). -/
theorem bcast_batch {α : Type} (y : S4096x4096.Idx → α) (b : Fin 4) (s t : Fin 4096) :
    broadcastInDim S4x4096x4096 ![1, 2] bcast_S4096x4096_S4x4096x4096_1_2 y (ix3 b s t) = y (ix2 s t) :=
  broadcastInDim_apply _ bcast_S4096x4096_S4x4096x4096_1_2 y (ix3 b s t) (ix2 s t) (fun a => match a with
    | ⟨0, _⟩ => by show s.val = if (4096 : Nat) = 1 then 0 else s.val; rw [if_neg (by decide)]
    | ⟨1, _⟩ => by show t.val = if (4096 : Nat) = 1 then 0 else t.val; rw [if_neg (by decide)])

/-- Reducing the middle axis of [4, 4096, 4096]: the index over (b, t) with s put back on the middle axis is (b, s, t). -/
theorem lift_mid (h : S4x4096x4096.Reduces [1] S4x4096) (b : Fin 4) (s t : Fin 4096) :
    h.lift (ix2 b t) s = ix3 b s t := by
  funext c; apply Fin.ext
  match c with | ⟨0, _⟩ => rfl | ⟨1, _⟩ => rfl | ⟨2, _⟩ => rfl

/-- Two numbers below 4096 written as 32-bit words are equal words only if they are equal. -/
theorem ofNat32_inj {a b : Nat} (ha : a < 4096) (hb : b < 4096) (h : BitVec.ofNat 32 a = BitVec.ofNat 32 b) : a = b := by
  have h' := congrArg BitVec.toNat h
  rw [BitVec.toNat_ofNat, BitVec.toNat_ofNat, Nat.mod_eq_of_lt (lt_trans ha (by norm_num)),
    Nat.mod_eq_of_lt (lt_trans hb (by norm_num))] at h'
  exact h'

/-- The equality test of the row grid against the column grid at (s, t): the bit 1 exactly when s = t. -/
theorem cmpi_eq_grid (s t : Fin 4096) :
    IntOp.cmpi .eq (BitVec.ofNat 32 s.val) (BitVec.ofNat 32 t.val) = if s = t then 1#1 else 0#1 := by
  by_cases h : s = t
  · subst h; rw [if_pos rfl]; simp [IntOp.cmpi]
  · rw [if_neg h]
    have hne : BitVec.ofNat 32 s.val ≠ BitVec.ofNat 32 t.val := fun he => h (Fin.ext (ofNat32_inj s.isLt t.isLt he))
    show BitVec.ofBool (BitVec.ofNat 32 s.val == BitVec.ofNat 32 t.val) = 0#1
    rw [beq_eq_false_iff_ne.2 hne]; rfl

/-! ## The stages, over an arbitrary score array -/

section Stages
variable (x : FVec Ideal S4x4096x4096 .f32)

/-- The host's sum over the middle axis from the constant 0, at (b, t): 0 plus the sum over the rows s. -/
theorem reduceAdd_mid (y : FVec Ideal S4x4096x4096 .f32) (b : Fin 4) (t : Fin 4096) :
    Host.reduceAdd y (constant (F := Ideal) S_ .f32 0x00000000#32) reducesTo_S4x4096x4096_S4x4096_d1 h_S_ (ix2 b t)
      = 0 + ∑ s : Fin 4096, y (ix3 b s t) := by
  have h : S4x4096x4096.Reduces [1] S4x4096 := by decide
  refine (Ideal.hostReduceAdd_single reducesTo_S4x4096x4096_S4x4096_d1 h y _ (ix2 b t)).trans ?_
  rw [constant_apply, Ideal.ofBits_zero_f32]
  exact congrArg (0 + ·) (Finset.sum_congr rfl fun s _ => congrArg y (lift_mid h b s t))

/-- The column maxima: the maximum over the rows from -∞, then once more against -∞. -/
def colMax : FVec Ideal S4x4096 .f32 :=
  maximumf (broadcastInDim S4x4096 ![] bcast_S_S4x4096 (constant (F := Ideal) S_ .f32 0xFF800000#32))
    (Host.reduce FloatOps.maximumf x (constant (F := Ideal) S_ .f32 0xFF800000#32) reducesTo_S4x4096x4096_S4x4096_d1 h_S_)

/-- At (b, t) the column maximum is the supremum over the rows s of the scores (s, t), compared with -∞. -/
theorem colMax_apply (b : Fin 4) (t : Fin 4096) :
    colMax x (ix2 b t) = max (⊥ : EReal) (⨆ s : Fin 4096, x (ix3 b s t)) := by
  have h : S4x4096x4096.Reduces [1] S4x4096 := by decide
  unfold colMax
  rw [maximumf_apply, bcast_scalar, constant_apply, ofBits_negInf_f32,
    hostReduce_max_single_negInf x reducesTo_S4x4096x4096_S4x4096_d1 h h_S_ (ix2 b t)]
  exact congrArg (max ⊥) (iSup_congr fun s => congrArg x (lift_mid h b s t))

/-- The column maxima broadcast back over the rows. -/
def maxB : FVec Ideal S4x4096x4096 .f32 :=
  broadcastInDim S4x4096x4096 ![0, 1, 2] bcast_S4x1x4096_S4x4096x4096_0_1_2
    (broadcastInDim S4x1x4096 ![0, 2] bcast_S4x4096_S4x1x4096_0_2 (colMax x))

theorem maxB_apply (b : Fin 4) (s t : Fin 4096) : maxB x (ix3 b s t) = colMax x (ix2 b t) := by
  unfold maxB; rw [bcast_col, bcast_row]

/-- The logarithm of the column sums of the shifted exponentials, still with the unit row axis. -/
def logSum : FVec Ideal S4x1x4096 .f32 :=
  Host.log (broadcastInDim S4x1x4096 ![0, 2] bcast_S4x4096_S4x1x4096_0_2
    (Host.reduceAdd (Host.exp (subf x (maxB x))) (constant (F := Ideal) S_ .f32 0x00000000#32) reducesTo_S4x4096x4096_S4x4096_d1 h_S_))

/-- At (b, ·, t): the logarithm of 0 plus the sum over the rows s of exp (score − column maximum). -/
theorem logSum_apply (b : Fin 4) (u : Fin 1) (t : Fin 4096) :
    logSum x (ix3 b u t) = Ideal.log (0 + ∑ s : Fin 4096, Ideal.exp (x (ix3 b s t) - colMax x (ix2 b t))) := by
  unfold logSum
  rw [hostLog_apply, bcast_row, reduceAdd_mid]
  refine congrArg (fun v => Ideal.log (0 + v)) (Finset.sum_congr rfl fun s _ => ?_)
  rw [hostExp_apply, subf_apply, maxB_apply]

/-- The log-sums broadcast back over the rows. -/
def logB : FVec Ideal S4x4096x4096 .f32 :=
  broadcastInDim S4x4096x4096 ![0, 1, 2] bcast_S4x1x4096_S4x4096x4096_0_1_2 (logSum x)

theorem logB_apply (b : Fin 4) (s t : Fin 4096) : logB x (ix3 b s t) = logSum x (ix3 b 0 t) := by
  unfold logB; rw [bcast_col]

/-- The diagonal mask: the row grid equals the column grid, repeated over the batch. -/
def diag : IVec S4x4096x4096 1 :=
  broadcastInDim S4x4096x4096 ![1, 2] bcast_S4096x4096_S4x4096x4096_1_2
    (cmpi .eq (iotaInDim S4096x4096 32 0) (iotaInDim S4096x4096 32 1))

theorem diag_apply (b : Fin 4) (s t : Fin 4096) : diag (ix3 b s t) = if s = t then 1#1 else 0#1 := by
  unfold diag; rw [bcast_batch]
  exact cmpi_eq_grid s t

/-- The terms from the scores: the log-softmax entries kept on the diagonal, 0 elsewhere, summed down each column. -/
def terms : FVec Ideal S4x4096 .f32 :=
  Host.reduceAdd (select diag (subf (subf x (maxB x)) (logB x))
      (broadcastInDim S4x4096x4096 ![] bcast_S_S4x4096x4096 (constant (F := Ideal) S_ .f32 0x00000000#32)))
    (constant (F := Ideal) S_ .f32 0x00000000#32) reducesTo_S4x4096x4096_S4x4096_d1 h_S_

/-- At (b, t) the sum down the column keeps the one diagonal entry: (score (t, t) − column maximum) − log-sum. -/
theorem terms_apply (b : Fin 4) (t : Fin 4096) :
    terms x (ix2 b t) = (x (ix3 b t t) - colMax x (ix2 b t)) - logSum x (ix3 b 0 t) := by
  unfold terms
  rw [reduceAdd_mid]
  have hsel : ∀ s : Fin 4096,
      select diag (subf (subf x (maxB x)) (logB x))
        (broadcastInDim S4x4096x4096 ![] bcast_S_S4x4096x4096 (constant (F := Ideal) S_ .f32 0x00000000#32)) (ix3 b s t)
      = if s = t then (x (ix3 b s t) - colMax x (ix2 b t)) - logSum x (ix3 b 0 t) else 0 := fun s => by
    rw [select_apply, diag_apply, bcast_scalar]
    by_cases h : s = t
    · rw [if_pos h, if_pos h, select_one, subf_apply, subf_apply, maxB_apply, logB_apply]
    · rw [if_neg h, if_neg h, select_zero, constant_apply, Ideal.ofBits_zero_f32]
  rw [Finset.sum_congr rfl fun s _ => hsel s, Finset.sum_ite_eq' Finset.univ t, if_pos (Finset.mem_univ t), zero_add]

end Stages

/-! ## The scores -/

theorem lhs_0 (i : S4x4096x4096.Idx) (q : dot_S4x4096x256_S4x4096x256_S4x4096x4096_2_2_1_1_0_0.contr.Idx) :
    (dot_S4x4096x256_S4x4096x256_S4x4096x4096_2_2_1_1_0_0.lhsIdx i q 0).val = (i 0).val := by
  unfold DotDims.lhsIdx
  rw [dif_pos (show (0 : Fin S4x4096x256.rank) ∈ dot_S4x4096x256_S4x4096x256_S4x4096x4096_2_2_1_1_0_0.lhsBatch by decide)]
  rfl
theorem lhs_1 (i : S4x4096x4096.Idx) (q : dot_S4x4096x256_S4x4096x256_S4x4096x4096_2_2_1_1_0_0.contr.Idx) :
    (dot_S4x4096x256_S4x4096x256_S4x4096x4096_2_2_1_1_0_0.lhsIdx i q 1).val = (i 1).val := by
  unfold DotDims.lhsIdx
  rw [dif_neg (show ¬(1 : Fin S4x4096x256.rank) ∈ dot_S4x4096x256_S4x4096x256_S4x4096x4096_2_2_1_1_0_0.lhsBatch by decide), dif_pos (show (1 : Fin S4x4096x256.rank) ∈ dot_S4x4096x256_S4x4096x256_S4x4096x4096_2_2_1_1_0_0.lhsNonContracting by decide)]
  rfl
theorem lhs_2 (i : S4x4096x4096.Idx) (q : dot_S4x4096x256_S4x4096x256_S4x4096x4096_2_2_1_1_0_0.contr.Idx) :
    (dot_S4x4096x256_S4x4096x256_S4x4096x4096_2_2_1_1_0_0.lhsIdx i q 2).val = (q ⟨0, by decide⟩).val :=
  dot_S4x4096x256_S4x4096x256_S4x4096x4096_2_2_1_1_0_0.lhsIdx_val_of_single rfl i q
theorem rhs_0 (i : S4x4096x4096.Idx) (q : dot_S4x4096x256_S4x4096x256_S4x4096x4096_2_2_1_1_0_0.contr.Idx) :
    (dot_S4x4096x256_S4x4096x256_S4x4096x4096_2_2_1_1_0_0.rhsIdx i q 0).val = (i 0).val := by
  unfold DotDims.rhsIdx
  rw [dif_pos (show (0 : Fin S4x4096x256.rank) ∈ dot_S4x4096x256_S4x4096x256_S4x4096x4096_2_2_1_1_0_0.rhsBatch by decide)]
  rfl
theorem rhs_1 (i : S4x4096x4096.Idx) (q : dot_S4x4096x256_S4x4096x256_S4x4096x4096_2_2_1_1_0_0.contr.Idx) :
    (dot_S4x4096x256_S4x4096x256_S4x4096x4096_2_2_1_1_0_0.rhsIdx i q 1).val = (i 2).val := by
  unfold DotDims.rhsIdx
  rw [dif_neg (show ¬(1 : Fin S4x4096x256.rank) ∈ dot_S4x4096x256_S4x4096x256_S4x4096x4096_2_2_1_1_0_0.rhsBatch by decide), dif_pos (show (1 : Fin S4x4096x256.rank) ∈ dot_S4x4096x256_S4x4096x256_S4x4096x4096_2_2_1_1_0_0.rhsNonContracting by decide)]
  rfl
theorem rhs_2 (i : S4x4096x4096.Idx) (q : dot_S4x4096x256_S4x4096x256_S4x4096x4096_2_2_1_1_0_0.contr.Idx) :
    (dot_S4x4096x256_S4x4096x256_S4x4096x4096_2_2_1_1_0_0.rhsIdx i q 2).val = (q ⟨0, by decide⟩).val :=
  dot_S4x4096x256_S4x4096x256_S4x4096x4096_2_2_1_1_0_0.rhsIdx_val_of_single rfl i q

/-- The contraction at (b, s, t): the sum over the 256 features k of z1 (b, s, k) · z2 (b, t, k). -/
theorem dot_apply (z1 z2 : FVec Ideal S4x4096x256 .f32) (b : Fin 4) (s t : Fin 4096) :
    Host.dotGeneral dot_S4x4096x256_S4x4096x256_S4x4096x4096_2_2_1_1_0_0 none z1 z2 (ix3 b s t) = ∑ k : Fin 256, z1 (ix3 b s k) * z2 (ix3 b t k) := by
  simp only [Host.dotGeneral]
  rw [Ideal.dotGeneral_apply, ← Equiv.sum_comp (ValueIdx.contrEquiv1 dot_S4x4096x256_S4x4096x256_S4x4096x4096_2_2_1_1_0_0 256 rfl rfl).symm]
  refine Finset.sum_congr rfl fun k _ => ?_
  have hk := ValueIdx.contrEquiv1_symm_val dot_S4x4096x256_S4x4096x256_S4x4096x4096_2_2_1_1_0_0 256 rfl rfl k
  have el : dot_S4x4096x256_S4x4096x256_S4x4096x4096_2_2_1_1_0_0.lhsIdx (ix3 b s t) ((ValueIdx.contrEquiv1 dot_S4x4096x256_S4x4096x256_S4x4096x4096_2_2_1_1_0_0 256 rfl rfl).symm k) = ix3 b s k := funext fun a => Fin.ext (by
    match a with
    | ⟨0, _⟩ => exact lhs_0 _ _
    | ⟨1, _⟩ => exact lhs_1 _ _
    | ⟨2, _⟩ => exact (lhs_2 _ _).trans hk)
  have er : dot_S4x4096x256_S4x4096x256_S4x4096x4096_2_2_1_1_0_0.rhsIdx (ix3 b s t) ((ValueIdx.contrEquiv1 dot_S4x4096x256_S4x4096x256_S4x4096x4096_2_2_1_1_0_0 256 rfl rfl).symm k) = ix3 b t k := funext fun a => Fin.ext (by
    match a with
    | ⟨0, _⟩ => exact rhs_0 _ _
    | ⟨1, _⟩ => exact rhs_1 _ _
    | ⟨2, _⟩ => exact (rhs_2 _ _).trans hk)
  rw [el, er]

/-- The score array: the contraction divided by the broadcast constant 1. -/
def scores (z1 z2 : FVec Ideal S4x4096x256 .f32) : FVec Ideal S4x4096x4096 .f32 :=
  Host.divf (Host.dotGeneral dot_S4x4096x256_S4x4096x256_S4x4096x4096_2_2_1_1_0_0 none z1 z2)
    (broadcastInDim S4x4096x4096 ![] bcast_S_S4x4096x4096 (constant (F := Ideal) S_ .f32 0x3F800000#32))

theorem scores_apply (z1 z2 : FVec Ideal S4x4096x256 .f32) (b : Fin 4) (s t : Fin 4096) :
    scores z1 z2 (ix3 b s t) = ∑ k : Fin 256, z1 (ix3 b s k) * z2 (ix3 b t k) := by
  unfold scores
  rw [hostDivf_apply, bcast_scalar, constant_apply, ofBits_one_f32, div_one', dot_apply]

/-- The program's array of terms is the stages applied to the score array. -/
theorem refTerms_eq (z1 z2 : FVec Ideal S4x4096x256 .f32) : refTerms z1 z2 = terms (scores z1 z2) := rfl

/-! ## Real arguments -/

section RealArgs
variable (a1 a2 : Cert.Spec.SArg.Idx → ℝ)

/-- For real arguments the score at (b, s, t) is the real inner product. -/
theorem scores_coe (b : Fin 4) (s t : Fin 4096) :
    scores (fun i => ((a1 i : ℝ) : EReal)) (fun i => ((a2 i : ℝ) : EReal)) (ix3 b s t)
      = ((Cert.Spec.score a1 a2 (b, t) s : ℝ) : EReal) := by
  rw [scores_apply]
  simp only [← EReal.coe_mul]
  exact sum_coe fun k : Fin 256 => a1 (ix3 b s k) * a2 (ix3 b t k)

/-- For real arguments the program's array of terms is the array of the real terms. -/
theorem refTerms_coe :
    refTerms (fun i => ((a1 i : ℝ) : EReal)) (fun i => ((a2 i : ℝ) : EReal)) = Cert.Spec.termArr a1 a2 := by
  funext j
  obtain ⟨b, t, rfl⟩ : ∃ (b : Fin 4) (t : Fin 4096), j = ix2 b t := ⟨j 0, j 1, eq_ix2 j⟩
  rw [refTerms_eq, terms_apply, logSum_apply, colMax_apply]
  simp only [scores_coe]
  have hmax : max (⊥ : EReal) (⨆ s : Fin 4096, ((Cert.Spec.score a1 a2 (b, t) s : ℝ) : EReal))
      = ((rowMax (Cert.Spec.score a1 a2) (b, t) : ℝ) : EReal) := by
    rw [max_eq_right bot_le, iSup_coe_eq_coe_sup']; rfl
  rw [hmax]
  have hsum : (0 : EReal) + ∑ s : Fin 4096, Ideal.exp (((Cert.Spec.score a1 a2 (b, t) s : ℝ) : EReal)
        - ((rowMax (Cert.Spec.score a1 a2) (b, t) : ℝ) : EReal))
      = ((rowSum (Cert.Spec.score a1 a2) (b, t) : ℝ) : EReal) := by
    rw [zero_add]
    simp only [← EReal.coe_sub, Ideal.exp_coe]
    exact sum_coe fun s : Fin 4096 => expShift (Cert.Spec.score a1 a2) (b, t) s
  rw [hsum, Ideal.log_coe, if_neg (not_le.2 (rowSum_pos (Cert.Spec.score a1 a2) (b, t))), ← EReal.coe_sub, ← EReal.coe_sub]
  rfl

end RealArgs

end Cert.ReferenceIdeal.RefValue

end
-- ==== Proof.FiniteInputs.lean ====
/-
  Finite inputs, read off the precondition.

  The precondition takes the absolute value of every entry of each argument, compares it with +∞ (strictly less), and
  takes the conjunction of all these comparisons (a reduction by "and" over every axis, from the constant true) for each
  argument; the two conjunctions are joined by one more "and". If the result is true, every comparison is true, so every
  entry x has |x| = max x (-x) < +∞; and an extended real whose absolute value is below +∞ is neither -∞ nor +∞.
-/
import proofs.«166531_j1056561955228_2_alg».proof.Pre_finite_inputs
import proofs.«166531_j1056561955228_2_alg».proof.Proof.Gen.Pre_finite_inputs
import Idealize.ShloMosaic.Lib.ReduceAll
import Idealize.ShloMosaic.Lib.ValueIdx
import Idealize.ShloMosaic.PureOps.Ideal.Laws

namespace Cert.FiniteInputs

open Idealize.ShloMosaic Cert.Pre_finite_inputs Cert.Pre_finite_inputs.Facts

/-- The scalar shape has one index. -/
instance : Subsingleton S_.Idx := ⟨fun _ _ => funext fun d => d.elim0⟩

/-- The f32 pattern `0x7F800000` (sign 0, exponent all ones, fraction 0) denotes +∞. -/
theorem ofBits_posInf_f32 : Ideal.ofBits .f32 0x7F800000#32 = ⊤ := by simp [Ideal.ofBits, Ideal.ieee]

/-- An extended real whose absolute value max x (-x) is below +∞ is finite. -/
theorem finite_of_abs_lt_top {x : EReal} (h : max x (-x) < ⊤) : x ≠ ⊥ ∧ x ≠ ⊤ := by
  constructor
  · rintro rfl
    rw [EReal.neg_bot, max_eq_right bot_le] at h
    exact lt_irrefl _ h
  · rintro rfl
    rw [max_eq_left le_top] at h
    exact lt_irrefl _ h

/-- The exact reading's "less than" test gives the bit 1 only when the strict inequality holds. -/
theorem lt_of_cmp_olt {a b : EReal} (h : Ideal.cmp .olt a b = 1#1) : a < b := by
  have h' : BitVec.ofBool (decide (a < b)) = 1#1 := h
  by_contra hn
  rw [decide_eq_false hn] at h'
  exact absurd h' (by decide)

/-- An elementwise "and" at an index. -/
theorem andi_apply {s : Shape} {w : Nat} (a b : IVec s w) (i : s.Idx) : andi a b i = IntOp.andi (a i) (b i) := rfl

/-- The comparison array of one argument: |z| < +∞, entry by entry. -/
noncomputable def mask (z : FVec Ideal S4x4096x256 .f32) : IVec S4x4096x256 1 :=
  cmpf .olt (Host.absf z)
    (broadcastInDim S4x4096x256 ![] bcast_S_S4x4096x256 (constant (F := Ideal) S_ .f32 0x7F800000#32))

/-- Where the comparison is true the entry is finite. -/
theorem finite_of_mask (z : FVec Ideal S4x4096x256 .f32) (i : S4x4096x256.Idx) (h : mask z i = 1#1) :
    z i ≠ ⊥ ∧ z i ≠ ⊤ := by
  have hb : broadcastInDim S4x4096x256 ![] bcast_S_S4x4096x256 (constant (F := Ideal) S_ .f32 0x7F800000#32) i = ⊤ :=
    ofBits_posInf_f32
  have h1 : Ideal.cmp .olt (max (z i) (-(z i)))
      (broadcastInDim S4x4096x256 ![] bcast_S_S4x4096x256 (constant (F := Ideal) S_ .f32 0x7F800000#32) i) = 1#1 := h
  rw [hb] at h1
  exact finite_of_abs_lt_top (lt_of_cmp_olt h1)

/-- If the precondition holds, every entry of both arguments is finite. -/
theorem finite_of_pre (z1 z2 : FVec Ideal Cert.Pre_finite_inputs.S4x4096x256 .f32)
    (h : Cert.Pre_finite_inputs.fn (F := Ideal) z1 z2 = fun _ => 1#1) :
    (∀ i, z1 i ≠ ⊥ ∧ z1 i ≠ ⊤) ∧ (∀ i, z2 i ≠ ⊥ ∧ z2 i ≠ ⊤) := by
  have h0 := congrFun h ValueIdx.ix0
  dsimp only [fn] at h0
  rw [andi_apply] at h0
  obtain ⟨e1, e2⟩ := IntOp.andi_eq_one.1 h0
  exact ⟨fun i => finite_of_mask z1 i (Host.reduce_andi_all _ _ reducesTo_S4x4096x256_S_d0_1_2 h_S_ ValueIdx.ix0 e1 i),
    fun i => finite_of_mask z2 i (Host.reduce_andi_all _ _ reducesTo_S4x4096x256_S_d0_1_2 h_S_ ValueIdx.ix0 e2 i)⟩

end Cert.FiniteInputs
-- ==== Proof.lean ====
/-
  The certificate: the kernel program and its reference compute the same loss over the extended reals.

  Both programs are given finite arguments z1, z2 of shape [4, 4096, 256].  For a pair (b, t) the scores of column t are
  x s = ⟨z1[b, s, ·], z2[b, t, ·]⟩; with M their maximum and L = ∑ s, exp (x s - M), the diagonal log-probability is
  (x t - M) - log L.  The reference forms it by a softmax over the whole [4, 4096, 4096] score array and picks the diagonal;
  the kernel program accumulates (M, L) over four key tiles with a running maximum and a rescaled running sum, emits
  M + log L, and the host subtracts it from x t computed directly.  Both then sum the terms, divide by 16384 and negate.
  Finiteness of the arguments is what makes every score a real number, so that the real identities
  exp (a - m) · exp (m - m') = exp (a - m') and x - (M + log L) = (x - M) - log L apply.

  The three frames: the two kernel programs' are the generated ones; the reference's is its run with the result dropped.
  The idealization rewrote nothing, so that conjunct is trivial.
-/
import proofs.«166531_j1056561955228_2_alg».proof.Defs
import proofs.«166531_j1056561955228_2_alg».proof.Proof.Gen.Kernel
import proofs.«166531_j1056561955228_2_alg».proof.Proof.Gen.Kernel.Skeleton
import proofs.«166531_j1056561955228_2_alg».proof.Proof.Gen.Kernel.Launch
import proofs.«166531_j1056561955228_2_alg».proof.Proof.Gen.Kernel.Points
import proofs.«166531_j1056561955228_2_alg».proof.Proof.Gen.Kernel.Frame
import proofs.«166531_j1056561955228_2_alg».proof.Proof.Gen.KernelIdeal
import proofs.«166531_j1056561955228_2_alg».proof.Proof.Gen.KernelIdeal.Skeleton
import proofs.«166531_j1056561955228_2_alg».proof.Proof.Gen.KernelIdeal.Launch
import proofs.«166531_j1056561955228_2_alg».proof.Proof.Gen.KernelIdeal.Points
import proofs.«166531_j1056561955228_2_alg».proof.Proof.Gen.KernelIdeal.Frame
import proofs.«166531_j1056561955228_2_alg».proof.Proof.Gen.ReferenceIdeal
import proofs.«166531_j1056561955228_2_alg».proof.Proof.Gen.Pre_finite_inputs
import proofs.«166531_j1056561955228_2_alg».proof.Proof.KernelValue
import proofs.«166531_j1056561955228_2_alg».proof.Proof.RefRun
import proofs.«166531_j1056561955228_2_alg».proof.Proof.RefValue
import proofs.«166531_j1056561955228_2_alg».proof.Proof.FiniteInputs
import Idealize.ShloMosaic.Adequacy
import Idealize.ShloMosaic.Init

noncomputable section

namespace Cert.Proof

open Idealize.ShloMosaic Idealize.SL.Sem

/-- The reference's result from finite arguments: the common tail of the diagonal log-probabilities of their real values. -/
theorem ref_value (z1 z2 : FVec Ideal Cert.ReferenceIdeal.S4x4096x256 .f32)
    (hz1 : ∀ i, z1 i ≠ ⊥ ∧ z1 i ≠ ⊤) (hz2 : ∀ i, z2 i ≠ ⊥ ∧ z2 i ≠ ⊤) :
    Cert.ReferenceIdeal.RefValue.refTerms z1 z2 = Cert.Spec.termArr (fun i => (z1 i).toReal) (fun i => (z2 i).toReal) := by
  have h := Cert.ReferenceIdeal.RefValue.refTerms_coe (fun i => (z1 i).toReal) (fun i => (z2 i).toReal)
  rw [← Cert.Spec.eq_coe_toReal z1 hz1, ← Cert.Spec.eq_coe_toReal z2 hz2] at h
  exact h

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- From memories agreeing on finite arguments both programs end at the same extended real: each side's per-pair terms
    are the diagonal log-probabilities of the arguments' real values, and the tail is the same. -/
theorem algebraic : Cert.algebraic_KernelIdeal_ReferenceIdeal := by
  intro m ρ m' ρ' hpre hagree
  have hfin := fun c => Cert.FiniteInputs.finite_of_pre _ _ (hpre c)
  refine ⟨_, Cert.KernelIdeal.LseValue.run m ρ (fun c => (hfin c).1) (fun c => (hfin c).2), ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2, Cert.ReferenceIdeal.RefValue.result_eq, ref_value _ _ (hfin c).1 (hfin c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
